-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x19x19x256 : Shape := ⟨4, ![256, 19, 19, 256]⟩
abbrev S256x256 : Shape := ⟨2, ![256, 256]⟩
abbrev S256 : Shape := ⟨1, ![256]⟩
abbrev S361x361 : Shape := ⟨2, ![361, 361]⟩
abbrev S361 : Shape := ⟨1, ![361]⟩
abbrev S_ : Shape := ⟨0, ![]⟩

class Facts : Prop where
  bcast_S_S256x19x19x256 : S_.BroadcastsInDim S256x19x19x256 (![] : Fin 0 → Fin S256x19x19x256.rank)
  reducesTo_S256x19x19x256_S_d0_1_2_3 : S256x19x19x256.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S361x361 : S_.BroadcastsInDim S361x361 (![] : Fin 0 → Fin S361x361.rank)
  reducesTo_S361x361_S_d0_1 : S361x361.ReducesTo [0, 1] S_
  bcast_S_S361 : S_.BroadcastsInDim S361 (![] : Fin 0 → Fin S361.rank)
  reducesTo_S361_S_d0 : S361.ReducesTo [0] S_

variable [Facts]

def fn_part4 {F : FTy → Type} [FloatOps F] (main_arg11 : FVec F S256 .f32) (main_v67 : IVec S_ 1) : IVec S_ 1 :=
  let main_cst_26 : FVec F S_ .f32 := constant S_ .f32 0x00000000#32
  let main_v68 : FVec F S256 .f32 := broadcastInDim S256 ![] bcast_S_S256 main_cst_26
  let main_v69 : IVec S256 1 := cmpf .oge main_arg11 main_v68
  let main_c_27 : IVec S_ 1 := constantI S_ 1 1#1
  let main_v70 : IVec S_ 1 := (fun x v => Host.reduce IntOp.andi x v reducesTo_S256_S_d0 h_S_) main_v69 main_c_27
  let main_v71 : IVec S_ 1 := andi main_v67 main_v70
  main_v71

def fn_part3 {F : FTy → Type} [FloatOps F] (main_arg4 : FVec F S256 .f32) (main_arg11 : FVec F S256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_cst_24 : FVec F S_ .f32 := constant S_ .f32 0x00000000#32
  let main_v64 : FVec F S256 .f32 := broadcastInDim S256 ![] bcast_S_S256 main_cst_24
  let main_v65 : IVec S256 1 := cmpf .oge main_arg4 main_v64
  let main_c_25 : IVec S_ 1 := constantI S_ 1 1#1
  let main_v66 : IVec S_ 1 := (fun x v => Host.reduce IntOp.andi x v reducesTo_S256_S_d0 h_S_) main_v65 main_c_25
  let main_v67 : IVec S_ 1 := andi main_v63 main_v66
  fn_part4 (F := F) main_arg11 main_v67

def fn_part2 {F : FTy → Type} [FloatOps F] (main_arg4 : FVec F S256 .f32) (main_arg7 : FVec F S361 .f32) (main_arg8 : FVec F S256x256 .f32) (main_arg9 : FVec F S256 .f32) (main_arg10 : FVec F S256 .f32) (main_arg11 : FVec F S256 .f32) (main_arg12 : FVec F S256 .f32) (main_v33 : IVec S_ 1) : IVec S_ 1 :=
  let main_v34 : FVec F S361 .f32 := Host.absf main_arg7
  let main_cst_12 : FVec F S_ .f32 := constant S_ .f32 0x7F800000#32
  let main_v35 : FVec F S361 .f32 := broadcastInDim S361 ![] bcast_S_S361 main_cst_12
  let main_v36 : IVec S361 1 := cmpf .olt main_v34 main_v35
  let main_c_13 : IVec S_ 1 := constantI S_ 1 1#1
  let main_v37 : IVec S_ 1 := (fun x v => Host.reduce IntOp.andi x v reducesTo_S361_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg4 main_arg11 main_arg12 main_v48 main_v49 main_v50

def fn_part1 {F : FTy → Type} [FloatOps F] (main_arg4 : FVec F S256 .f32) (main_arg5 : FVec F S256 .f32) (main_arg6 : FVec F S361x361 .f32) (main_arg7 : FVec F S361 .f32) (main_arg8 : FVec F S256x256 .f32) (main_arg9 : FVec F S256 .f32) (main_arg10 : FVec F S256 .f32) (main_arg11 : FVec F S256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S361x361 .f32 := Host.absf main_arg6
  let main_cst_10 : FVec F S_ .f32 := constant S_ .f32 0x7F800000#32
  let main_v30 : FVec F S361x361 .f32 := broadcastInDim S361x361 ![] bcast_S_S361x361 main_cst_10
  let main_v31 : IVec S361x361 1 := cmpf .olt main_v29 main_v30
  let main_c_11 : IVec S_ 1 := constantI S_ 1 1#1
  let main_v32 : IVec S_ 1 := (fun x v => Host.reduce IntOp.andi x v reducesTo_S361x361_S_d0_1 h_S_) main_v31 main_c_11
  let main_v33 : IVec S_ 1 := andi main_v28 main_v32
  fn_part2 (F := F) main_arg4 main_arg7 main_arg8 main_arg9 main_arg10 main_arg11 main_arg12 main_v33

def fn {F : FTy → Type} [FloatOps F] (main_arg0 : FVec F S256x19x19x256 .f32) (main_arg1 : FVec F S256x256 .f32) (main_arg2 : FVec F S256 .f32) (main_arg3 : FVec F S256 .f32) (main_arg4 : FVec F S256 .f32) (main_arg5 : FVec F S256 .f32) (main_arg6 : FVec F S361x361 .f32) (main_arg7 : FVec F S361 .f32) (main_arg8 : FVec F S256x256 .f32) (main_arg9 : FVec F S256 .f32) (main_arg10 : FVec F S256 .f32) (main_arg11 : FVec F S256 .f32) (main_arg12 : FVec F S256 .f32) : IVec S_ 1 :=
  let main_v0 : FVec F S256x19x19x256 .f32 := Host.absf main_arg0
  let main_cst : FVec F S_ .f32 := constant S_ .f32 0x7F800000#32
  let main_v1 : FVec F S256x19x19x256 .f32 := broadcastInDim S256x19x19x256 ![] bcast_S_S256x19x19x256 main_cst
  let main_v2 : IVec S256x19x19x256 1 := cmpf .olt main_v0 main_v1
  let main_c : IVec S_ 1 := constantI S_ 1 1#1
  let main_v3 : IVec S_ 1 := (fun x v => Host.reduce IntOp.andi x v reducesTo_S256x19x19x256_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_v13 main_v16
-- ==== Kernel.lean ====
abbrev S256x19x19x256 : Shape := ⟨4, ![256, 19, 19, 256]⟩
abbrev S256x256 : Shape := ⟨2, ![256, 256]⟩
abbrev S256 : Shape := ⟨1, ![256]⟩
abbrev S361x361 : Shape := ⟨2, ![361, 361]⟩
abbrev S361 : Shape := ⟨1, ![361]⟩
abbrev S_ : Shape := ⟨0, ![]⟩
abbrev S1x256 : Shape := ⟨2, ![1, 256]⟩
abbrev S361x1 : Shape := ⟨2, ![361, 1]⟩
abbrev S256x361x256 : Shape := ⟨3, ![256, 361, 256]⟩
abbrev S8x361x256 : Shape := ⟨3, ![8, 361, 256]⟩
abbrev S2888x256 : Shape := ⟨2, ![2888, 256]⟩
abbrev S361x256 : Shape := ⟨2, ![361, 256]⟩
abbrev S1x361x256 : Shape := ⟨3, ![1, 361, 256]⟩

abbrev nBuf : Space → Nat
  | .hbm => 42
  | .vmem => 10
  | .smem => 0
  | _ => 0

abbrev bufTy : (tb : Table) → Fin (tcTables nBuf tb) → BufTy
  | .hbm, ⟨0, _⟩ => ⟨S256x19x19x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S361x361, .f32⟩
  | .hbm, ⟨7, _⟩ => ⟨S361, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S256, .f32⟩
  | .hbm, ⟨23, _⟩ => ⟨S256, .f32⟩
  | .hbm, ⟨24, _⟩ => ⟨S1x256, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S1x256, .f32⟩
  | .hbm, ⟨32, _⟩ => ⟨S256x256, .f32⟩
  | .hbm, ⟨33, _⟩ => ⟨S256x256, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S361x361, .f32⟩
  | .hbm, ⟨38, _⟩ => ⟨S361x1, .f32⟩
  | .hbm, ⟨39, _⟩ => ⟨S256x361x256, .f32⟩
  | .hbm, ⟨40, _⟩ => ⟨S256x361x256, .f32⟩
  | .hbm, ⟨41, _⟩ => ⟨S256x19x19x256, .f32⟩
  | .local _ .vmem, ⟨0, _⟩ => ⟨S8x361x256, .f32⟩
  | .local _ .vmem, ⟨1, _⟩ => ⟨S8x361x256, .f32⟩
  | .local _ .vmem, ⟨2, _⟩ => ⟨S256x256, .f32⟩
  | .local _ .vmem, ⟨3, _⟩ => ⟨S1x256, .f32⟩
  | .local _ .vmem, ⟨4, _⟩ => ⟨S361x361, .f32⟩
  | .local _ .vmem, ⟨5, _⟩ => ⟨S361x1, .f32⟩
  | .local _ .vmem, ⟨6, _⟩ => ⟨S256x256, .f32⟩
  | .local _ .vmem, ⟨7, _⟩ => ⟨S1x256, .f32⟩
  | .local _ .vmem, ⟨8, _⟩ => ⟨S8x361x256, .f32⟩
  | .local _ .vmem, ⟨9, _⟩ => ⟨S8x361x256, .f32⟩
  | _, _ => ⟨S256x19x19x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x361x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S361x361 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S361x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x361x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S256 : S_.BroadcastsInDim S256 (![] : Fin 0 → Fin S256.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  shapeCasts_S256_S1x256 : S256.ShapeCasts S1x256
  transposes_S361x361_S361x361_1_0 : S361x361.Transposes [1, 0] S361x361
  shapeCasts_S361_S361x1 : S361.ShapeCasts S361x1
  shapeCasts_S256x19x19x256_S256x361x256 : S256x19x19x256.ShapeCasts S256x361x256
  inb_S8x361x256_S8x361x256_0_0_0 : ∀ a, (![0, 0, 0] : Fin 3 → Nat) a + S8x361x256.size a ≤ S8x361x256.size a
  h_S8x361x256 : 0 < S8x361x256.numel
  shapeCasts_S8x361x256_S8x361x256 : S8x361x256.ShapeCasts S8x361x256
  shapeCasts_S8x361x256_S2888x256 : S8x361x256.ShapeCasts S2888x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2888x256 : S1x256.Broadcasts S2888x256
  shapeCasts_S2888x256_S8x361x256 : S2888x256.ShapeCasts S8x361x256
  inb_S361x361_S361x361_0_0 : ∀ a, (![0, 0] : Fin 2 → Nat) a + S361x361.size a ≤ S361x361.size a
  h_S361x361 : 0 < S361x361.numel
  shapeCasts_S361x361_S361x361 : S361x361.ShapeCasts S361x361
  inb_S361x1_S361x1_0_0 : ∀ a, (![0, 0] : Fin 2 → Nat) a + S361x1.size a ≤ S361x1.size a
  h_S361x1 : 0 < S361x1.numel
  shapeCasts_S361x1_S361x1 : S361x1.ShapeCasts S361x1
  broadcasts_S361x1_S361x256 : S361x1.Broadcasts S361x256
  slices_S8x361x256_o0_0_0_S1x361x256 : S8x361x256.Slices ![0, 0, 0] S1x361x256
  shapeCasts_S1x361x256_S361x256 : S1x361x256.ShapeCasts S361x256
  slices_S8x361x256_o1_0_0_S1x361x256 : S8x361x256.Slices ![1, 0, 0] S1x361x256
  slices_S8x361x256_o2_0_0_S1x361x256 : S8x361x256.Slices ![2, 0, 0] S1x361x256
  slices_S8x361x256_o3_0_0_S1x361x256 : S8x361x256.Slices ![3, 0, 0] S1x361x256
  slices_S8x361x256_o4_0_0_S1x361x256 : S8x361x256.Slices ![4, 0, 0] S1x361x256
  slices_S8x361x256_o5_0_0_S1x361x256 : S8x361x256.Slices ![5, 0, 0] S1x361x256
  slices_S8x361x256_o6_0_0_S1x361x256 : S8x361x256.Slices ![6, 0, 0] S1x361x256
  slices_S8x361x256_o7_0_0_S1x361x256 : S8x361x256.Slices ![7, 0, 0] S1x361x256
  concatenates_S361x256_S361x256_S361x256_S361x256_S361x256_S361x256_S361x256_S361x256_S2888x256_d0 : Shape.Concatenates [S361x256, S361x256, S361x256, S361x256, S361x256, S361x256, S361x256, S361x256] S2888x256 0
  shapeCasts_S256x361x256_S256x19x19x256 : S256x361x256.ShapeCasts S256x19x19x256
  dot_S2888x256_S256x256_S2888x256_1_0_0_1_n_n_wf : DotDims.WF S2888x256 S256x256 S2888x256 [1] [0] [0] [1] [] []
  dot_S361x361_S361x256_S361x256_1_0_0_1_n_n_wf : DotDims.WF S361x361 S361x256 S361x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x361x256.size a ≤ S256x361x256.size a
  hwx0_0 : ∀ i : grid0.Coords, EltTy.bits .f32 = 32 ∨ (Rect.block (s := S256x361x256) S8x361x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S361x361.size a ≤ S361x361.size a
  hwx0_3 : ∀ i : grid0.Coords, EltTy.bits .f32 = 32 ∨ (Rect.block (s := S361x361) S361x361.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S361x1.size a ≤ S361x1.size a
  hwx0_4 : ∀ i : grid0.Coords, EltTy.bits .f32 = 32 ∨ (Rect.block (s := S361x1) S361x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x361x256.size a ≤ S256x361x256.size a
  hwx0_7 : ∀ i : grid0.Coords, EltTy.bits .f32 = 32 ∨ (Rect.block (s := S256x361x256) S8x361x256.size (cc0_transform_7 i) (hinb0_7 i)).WholeWords (EltTy.packing .f32)

variable [Facts₀]

def dot_S2888x256_S256x256_S2888x256_1_0_0_1_n_n : DotDims S2888x256 S256x256 S2888x256 where
  lhsContracting := [1]
  rhsContracting := [0]
  lhsNonContracting := [0]
  rhsNonContracting := [1]
  lhsBatch := []
  rhsBatch := []
  wf := dot_S2888x256_S256x256_S2888x256_1_0_0_1_n_n_wf
def dot_S361x361_S361x256_S361x256_1_0_0_1_n_n : DotDims S361x361 S361x256 S361x256 where
  lhsContracting := [1]
  rhsContracting := [0]
  lhsNonContracting := [0]
  rhsNonContracting := [1]
  lhsBatch := []
  rhsBatch := []
  wf := dot_S361x361_S361x256_S361x256_1_0_0_1_n_n_wf

abbrev win0_0 : Pipeline.Window sig grid0 :=
  Pipeline.Window.ofSpec (Memref.whole main_v24) S8x361x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S361x361.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S361x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S8x361x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x19x19x256 : Shape := ⟨4, ![256, 19, 19, 256]⟩
abbrev S256x256 : Shape := ⟨2, ![256, 256]⟩
abbrev S256 : Shape := ⟨1, ![256]⟩
abbrev S361x361 : Shape := ⟨2, ![361, 361]⟩
abbrev S361 : Shape := ⟨1, ![361]⟩
abbrev S1x1x1x256 : Shape := ⟨4, ![1, 1, 1, 256]⟩
abbrev S_ : Shape := ⟨0, ![]⟩
abbrev S256x256x19x19 : Shape := ⟨4, ![256, 256, 19, 19]⟩
abbrev S256x256x361 : Shape := ⟨3, ![256, 256, 361]⟩
abbrev S1x1x361 : Shape := ⟨3, ![1, 1, 361]⟩

abbrev nBuf : Space → Nat
  | .hbm => 65
  | .vmem => 0
  | .smem => 0
  | _ => 0

abbrev bufTy : (tb : Table) → Fin (tcTables nBuf tb) → BufTy
  | .hbm, ⟨0, _⟩ => ⟨S256x19x19x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S361x361, .f32⟩
  | .hbm, ⟨7, _⟩ => ⟨S361, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x19x19x256, .f32⟩
  | .hbm, ⟨14, _⟩ => ⟨S1x1x1x256, .f32⟩
  | .hbm, ⟨15, _⟩ => ⟨S256x19x19x256, .f32⟩
  | .hbm, ⟨16, _⟩ => ⟨S256x19x19x256, .f32⟩
  | .hbm, ⟨17, _⟩ => ⟨S1x1x1x256, .f32⟩
  | .hbm, ⟨18, _⟩ => ⟨S256x19x19x256, .f32⟩
  | .hbm, ⟨19, _⟩ => ⟨S256x19x19x256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x1x1x256, .f32⟩
  | .hbm, ⟨25, _⟩ => ⟨S256x19x19x256, .f32⟩
  | .hbm, ⟨26, _⟩ => ⟨S256x19x19x256, .f32⟩
  | .hbm, ⟨27, _⟩ => ⟨S1x1x1x256, .f32⟩
  | .hbm, ⟨28, _⟩ => ⟨S256x19x19x256, .f32⟩
  | .hbm, ⟨29, _⟩ => ⟨S256x19x19x256, .f32⟩
  | .hbm, ⟨30, _⟩ => ⟨S_, .f32⟩
  | .hbm, ⟨31, _⟩ => ⟨S256x19x19x256, .f32⟩
  | .hbm, ⟨32, _⟩ => ⟨S256x19x19x256, .f32⟩
  | .hbm, ⟨33, _⟩ => ⟨S256x256x19x19, .f32⟩
  | .hbm, ⟨34, _⟩ => ⟨S256x256x361, .f32⟩
  | .hbm, ⟨35, _⟩ => ⟨S256x256x361, .f32⟩
  | .hbm, ⟨36, _⟩ => ⟨S1x1x361, .f32⟩
  | .hbm, ⟨37, _⟩ => ⟨S256x256x361, .f32⟩
  | .hbm, ⟨38, _⟩ => ⟨S256x256x361, .f32⟩
  | .hbm, ⟨39, _⟩ => ⟨S_, .f32⟩
  | .hbm, ⟨40, _⟩ => ⟨S256x256x361, .f32⟩
  | .hbm, ⟨41, _⟩ => ⟨S256x256x361, .f32⟩
  | .hbm, ⟨42, _⟩ => ⟨S256x256x19x19, .f32⟩
  | .hbm, ⟨43, _⟩ => ⟨S256x19x19x256, .f32⟩
  | .hbm, ⟨44, _⟩ => ⟨S256x19x19x256, .f32⟩
  | .hbm, ⟨45, _⟩ => ⟨S1x1x1x256, .f32⟩
  | .hbm, ⟨46, _⟩ => ⟨S256x19x19x256, .f32⟩
  | .hbm, ⟨47, _⟩ => ⟨S256x19x19x256, .f32⟩
  | .hbm, ⟨48, _⟩ => ⟨S1x1x1x256, .f32⟩
  | .hbm, ⟨49, _⟩ => ⟨S256x19x19x256, .f32⟩
  | .hbm, ⟨50, _⟩ => ⟨S256x19x19x256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S256, .f32⟩
  | .hbm, ⟨55, _⟩ => ⟨S1x1x1x256, .f32⟩
  | .hbm, ⟨56, _⟩ => ⟨S256x19x19x256, .f32⟩
  | .hbm, ⟨57, _⟩ => ⟨S256x19x19x256, .f32⟩
  | .hbm, ⟨58, _⟩ => ⟨S1x1x1x256, .f32⟩
  | .hbm, ⟨59, _⟩ => ⟨S256x19x19x256, .f32⟩
  | .hbm, ⟨60, _⟩ => ⟨S256x19x19x256, .f32⟩
  | .hbm, ⟨61, _⟩ => ⟨S_, .f32⟩
  | .hbm, ⟨62, _⟩ => ⟨S256x19x19x256, .f32⟩
  | .hbm, ⟨63, _⟩ => ⟨S256x19x19x256, .f32⟩
  | .hbm, ⟨64, _⟩ => ⟨S256x19x19x256, .f32⟩
  | _, _ => ⟨S256x19x19x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call2_cst : Ref sig .tc := ⟨.hbm, 61, rfl⟩
abbrev main_call2_v0 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S256x19x19x256_0_1_2_3 : S1x1x1x256.BroadcastsInDim S256x19x19x256 (![0, 1, 2, 3] : Fin 4 → Fin S256x19x19x256.rank)
  bcast_S_S256 : S_.BroadcastsInDim S256 (![] : Fin 0 → Fin S256.rank)
  bcast_S_S256x19x19x256 : S_.BroadcastsInDim S256x19x19x256 (![] : Fin 0 → Fin S256x19x19x256.rank)
  transposes_S256x19x19x256_S256x256x19x19_0_3_1_2 : S256x19x19x256.Transposes [0, 3, 1, 2] S256x256x19x19
  shapeCasts_S256x256x19x19_S256x256x361 : S256x256x19x19.ShapeCasts S256x256x361
  bcast_S361_S1x1x361_2 : S361.BroadcastsInDim S1x1x361 (![2] : Fin 1 → Fin S1x1x361.rank)
  bcast_S1x1x361_S256x256x361_0_1_2 : S1x1x361.BroadcastsInDim S256x256x361 (![0, 1, 2] : Fin 3 → Fin S256x256x361.rank)
  bcast_S_S256x256x361 : S_.BroadcastsInDim S256x256x361 (![] : Fin 0 → Fin S256x256x361.rank)
  shapeCasts_S256x256x361_S256x256x19x19 : S256x256x361.ShapeCasts S256x256x19x19
  transposes_S256x256x19x19_S256x19x19x256_0_2_3_1 : S256x256x19x19.Transposes [0, 2, 3, 1] S256x19x19x256
  dot_S256x19x19x256_S256x256_S256x19x19x256_3_0_012_1_n_n_wf : DotDims.WF S256x19x19x256 S256x256 S256x19x19x256 [3] [0] [0, 1, 2] [1] [] []
  dot_S256x256x361_S361x361_S256x256x361_2_0_01_1_n_n_wf : DotDims.WF S256x256x361 S361x361 S256x256x361 [2] [0] [0, 1] [1] [] []

variable [Facts₀]

def dot_S256x19x19x256_S256x256_S256x19x19x256_3_0_012_1_n_n : DotDims S256x19x19x256 S256x256 S256x19x19x256 where
  lhsContracting := [3]
  rhsContracting := [0]
  lhsNonContracting := [0, 1, 2]
  rhsNonContracting := [1]
  lhsBatch := []
  rhsBatch := []
  wf := dot_S256x19x19x256_S256x256_S256x19x19x256_3_0_012_1_n_n_wf
def dot_S256x256x361_S361x361_S256x256x361_2_0_01_1_n_n : DotDims S256x256x361 S361x361 S256x256x361 where
  lhsContracting := [2]
  rhsContracting := [0]
  lhsNonContracting := [0, 1]
  rhsNonContracting := [1]
  lhsBatch := []
  rhsBatch := []
  wf := dot_S256x256x361_S361x361_S256x256x361_2_0_01_1_n_n_wf

class Facts : Prop extends Facts₀ where

variable [Facts]
-- ==== Proof.Spec.lean ====
/-
  The function both programs compute, written once over the thirteen argument arrays.

  A residual block on a 19 × 19 board with 256 channels, for each of 256 samples. Write p = 19·h + w for the flat
  position of board square (h, w). With s(var, d) = (var d + ε)^(-1/2) the normalisation scale of channel d:

    first(n, p, d)  = max ( ((Σ_c x(n, p, c) · W₁(c, d) + b₁ d) − mean₁ d) · s(var₁, d) + beta₁ d ) 0
    mixed(n, q, c)  = max ( Σ_p first(n, p, c) · D(p, q) + e q ) 0
    second(n, q, d) = max ( ((Σ_c mixed(n, q, c) · W₂(c, d) + b₂ d) − mean₂ d) · s(var₂, d) + beta₂ d ) 0
    result(n, h, w, d) = x(n, h, w, d) + second(n, 19·h + w, d)

  The same block can be computed with the normalisation folded into weight and bias beforehand,
    max ( Σ_c a c · (W(c, d) · s) + (b d · s + (beta d − mean d · s)) ) 0,
  and with the factors of the spatial mix in the other order; both variants are stated here too, and they agree with the
  first form as soon as every number involved is real (distributivity fails at the infinities of the extended reals).
-/
import Idealize.ShloMosaic.PureOps.Ideal
import Idealize.ShloMosaic.Lib.ValueIdx

noncomputable section

open scoped BigOperators

namespace Cert.Spec

open Idealize.ShloMosaic Idealize.ShloMosaic.ValueIdx

/-- The board array: sample, row, column, channel. -/
abbrev Board := (⟨4, ![256, 19, 19, 256]⟩ : Shape).Idx → EReal
/-- A channel-mixing matrix: input channel, output channel. -/
abbrev ChanMat := (⟨2, ![256, 256]⟩ : Shape).Idx → EReal
/-- A per-channel vector. -/
abbrev ChanVec := (⟨1, ![256]⟩ : Shape).Idx → EReal
/-- The spatial-mixing matrix: input square, output square. -/
abbrev SqMat := (⟨2, ![361, 361]⟩ : Shape).Idx → EReal
/-- A per-square vector. -/
abbrev SqVec := (⟨1, ![361]⟩ : Shape).Idx → EReal

/-- The thirteen argument arrays, in the order of the programs' parameters. -/
structure Args where
  x : Board
  w1 : ChanMat
  b1 : ChanVec
  mean1 : ChanVec
  var1 : ChanVec
  beta1 : ChanVec
  dw : SqMat
  db : SqVec
  w2 : ChanMat
  b2 : ChanVec
  mean2 : ChanVec
  var2 : ChanVec
  beta2 : ChanVec

/-- The normalisation's ε: the single-precision number nearest to 0.001. -/
def eps : EReal := Ideal.ofBits .f32 0x3A83126F#32
/-- The zero the rectifier compares with. -/
def zero : EReal := Ideal.ofBits .f32 0x00000000#32

/-- Flat position of a board square. -/
def sq (h w : Fin 19) : Fin 361 := ⟨19 * h.val + w.val, by have := h.isLt; have := w.isLt; omega⟩
/-- Row of a flat position. -/
def rowOf (p : Fin 361) : Fin 19 := ⟨p.val / 19, by have := p.isLt; omega⟩
/-- Column of a flat position. -/
def colOf (p : Fin 361) : Fin 19 := ⟨p.val % 19, Nat.mod_lt _ (by decide)⟩

theorem rowOf_sq (h w : Fin 19) : rowOf (sq h w) = h := by
  apply Fin.ext; show (19 * h.val + w.val) / 19 = h.val; have := w.isLt; omega
theorem colOf_sq (h w : Fin 19) : colOf (sq h w) = w := by
  apply Fin.ext; show (19 * h.val + w.val) % 19 = w.val; have := w.isLt; omega
theorem sq_rowOf_colOf (p : Fin 361) : sq (rowOf p) (colOf p) = p := by
  apply Fin.ext; show 19 * (p.val / 19) + p.val % 19 = p.val; omega

/-- The normalisation scale of channel `d`. -/
def scale (var : ChanVec) (d : Fin 256) : EReal := Ideal.rsqrt (var (ix1 d) + eps)

/-- One convolution block at an output channel, in the order mix, bias, normalise, rectify; `a` is the row of the 256
    input channels. -/
def convBlock (W : ChanMat) (b mean var beta : ChanVec) (a : Fin 256 → EReal) (d : Fin 256) : EReal :=
  max ((((∑ c : Fin 256, a c * W (ix2 c d)) + b (ix1 d)) - mean (ix1 d)) * scale var d + beta (ix1 d)) zero

/-- The same block with the normalisation folded into the weight and the bias beforehand. -/
def convBlockFolded (W : ChanMat) (b mean var beta : ChanVec) (a : Fin 256 → EReal) (d : Fin 256) : EReal :=
  max ((∑ c : Fin 256, a c * (W (ix2 c d) * scale var d))
    + (b (ix1 d) * scale var d + (beta (ix1 d) - mean (ix1 d) * scale var d))) zero

/-- The spatial mix at an output square: `g` is the column of the 361 input squares. -/
def mix (D : SqMat) (e : SqVec) (g : Fin 361 → EReal) (q : Fin 361) : EReal :=
  max ((∑ p : Fin 361, g p * D (ix2 p q)) + e (ix1 q)) zero

/-- The spatial mix with the matrix entry written first. -/
def mixT (D : SqMat) (e : SqVec) (g : Fin 361 → EReal) (q : Fin 361) : EReal :=
  max ((∑ p : Fin 361, D (ix2 p q) * g p) + e (ix1 q)) zero

theorem mixT_eq_mix (D : SqMat) (e : SqVec) (g : Fin 361 → EReal) (q : Fin 361) : mixT D e g q = mix D e g q := by
  unfold mixT mix
  congr 2
  exact Finset.sum_congr rfl fun p _ => mul_comm _ _

variable (a : Args)

/-- After the first block. -/
def first (n : Fin 256) (p : Fin 361) (d : Fin 256) : EReal :=
  convBlock a.w1 a.b1 a.mean1 a.var1 a.beta1 (fun c => a.x (ix4 n (rowOf p) (colOf p) c)) d
/-- After the spatial mix. -/
def mixed (n : Fin 256) (q : Fin 361) (c : Fin 256) : EReal :=
  mix a.dw a.db (fun p => first a n p c) q
/-- After the second block. -/
def second (n : Fin 256) (q : Fin 361) (d : Fin 256) : EReal :=
  convBlock a.w2 a.b2 a.mean2 a.var2 a.beta2 (fun c => mixed a n q c) d
/-- The result array. -/
def result : Board := fun i => a.x i + second a (i 0) (sq (i 1) (i 2)) (i 3)

/-- The same three stages in the folded order. -/
def firstF (n : Fin 256) (p : Fin 361) (d : Fin 256) : EReal :=
  convBlockFolded a.w1 a.b1 a.mean1 a.var1 a.beta1 (fun c => a.x (ix4 n (rowOf p) (colOf p) c)) d
def mixedF (n : Fin 256) (q : Fin 361) (c : Fin 256) : EReal :=
  mixT a.dw a.db (fun p => firstF a n p c) q
def secondF (n : Fin 256) (q : Fin 361) (d : Fin 256) : EReal :=
  convBlockFolded a.w2 a.b2 a.mean2 a.var2 a.beta2 (fun c => mixedF a n q c) d
def resultF : Board := fun i => a.x i + secondF a (i 0) (sq (i 1) (i 2)) (i 3)

/-- Every entry of every argument is a real number, and the two variance vectors are nonnegative. -/
structure Args.Finite : Prop where
  x : ∀ i, ∃ r : ℝ, a.x i = (r : EReal)
  w1 : ∀ i, ∃ r : ℝ, a.w1 i = (r : EReal)
  b1 : ∀ i, ∃ r : ℝ, a.b1 i = (r : EReal)
  mean1 : ∀ i, ∃ r : ℝ, a.mean1 i = (r : EReal)
  var1 : ∀ i, ∃ r : ℝ, a.var1 i = (r : EReal)
  beta1 : ∀ i, ∃ r : ℝ, a.beta1 i = (r : EReal)
  dw : ∀ i, ∃ r : ℝ, a.dw i = (r : EReal)
  db : ∀ i, ∃ r : ℝ, a.db i = (r : EReal)
  w2 : ∀ i, ∃ r : ℝ, a.w2 i = (r : EReal)
  b2 : ∀ i, ∃ r : ℝ, a.b2 i = (r : EReal)
  mean2 : ∀ i, ∃ r : ℝ, a.mean2 i = (r : EReal)
  var2 : ∀ i, ∃ r : ℝ, a.var2 i = (r : EReal)
  beta2 : ∀ i, ∃ r : ℝ, a.beta2 i = (r : EReal)
  var1_nonneg : ∀ i, (0 : EReal) ≤ a.var1 i
  var2_nonneg : ∀ i, (0 : EReal) ≤ a.var2 i

end Cert.Spec

end
-- ==== Proof.Algebra.lean ====
/-
  The folded form of the residual block agrees with the plain form on real data.

  Three facts carry the argument.  First, on nonnegative real variances the normalisation scale
  (var d + ε)^(-1/2) is itself a real number, because ε is a positive real.  Second, over the reals the
  identity
      Σ_k a k · (w k · s) + (b · s + (beta − mean · s)) = ((Σ_k a k · w k + b) − mean) · s + beta
  is plain distributivity; it is transported to the extended reals by writing every quantity as the
  image of a real.  Third, sums, products, differences and maxima of reals are reals, so each stage of
  the block produces real values and the identity can be applied again at the next stage.
-/
import proofs.«138337_j32014686224994_2_alg».proof.Proof.Spec
import Idealize.ShloMosaic.PureOps.Ideal.Laws

open scoped BigOperators

namespace Cert.Spec

open Idealize.ShloMosaic Idealize.ShloMosaic.ValueIdx

/-! ### Real elements of the extended reals -/

/-- An extended real that is the image of a real number. -/
abbrev IsReal (x : EReal) : Prop := ∃ r : ℝ, x = (r : EReal)

theorem IsReal.add {x y : EReal} (hx : IsReal x) (hy : IsReal y) : IsReal (x + y) := by
  obtain ⟨r, rfl⟩ := hx; obtain ⟨t, rfl⟩ := hy; exact ⟨r + t, (EReal.coe_add r t).symm⟩

theorem IsReal.mul {x y : EReal} (hx : IsReal x) (hy : IsReal y) : IsReal (x * y) := by
  obtain ⟨r, rfl⟩ := hx; obtain ⟨t, rfl⟩ := hy; exact ⟨r * t, (EReal.coe_mul r t).symm⟩

theorem IsReal.sub {x y : EReal} (hx : IsReal x) (hy : IsReal y) : IsReal (x - y) := by
  obtain ⟨r, rfl⟩ := hx; obtain ⟨t, rfl⟩ := hy; exact ⟨r - t, (EReal.coe_sub r t).symm⟩

/-- The larger of two reals is one of them. -/
theorem IsReal.max {x y : EReal} (hx : IsReal x) (hy : IsReal y) : IsReal (max x y) := by
  rcases max_choice x y with h | h <;> rw [h] <;> assumption

/-- The coercion from the reals commutes with finite sums. -/
theorem coe_sum {K : Type*} (S : Finset K) (f : K → ℝ) :
    ((∑ k ∈ S, f k : ℝ) : EReal) = ∑ k ∈ S, (f k : EReal) := by
  classical
  induction S using Finset.induction_on with
  | empty => simp
  | insert k S hk ih => rw [Finset.sum_insert hk, Finset.sum_insert hk, EReal.coe_add, ih]

/-- A finite sum of reals is a real. -/
theorem IsReal.sum {K : Type*} [Fintype K] {f : K → EReal} (hf : ∀ k, IsReal (f k)) : IsReal (∑ k, f k) := by
  choose g hg using hf
  exact ⟨∑ k, g k, by rw [coe_sum]; exact Finset.sum_congr rfl fun k _ => hg k⟩

/-! ### The constants and the normalisation scale -/

theorem zero_eq : zero = 0 := Ideal.ofBits_zero_f32

theorem zero_real : IsReal zero := ⟨0, by rw [zero_eq]; rfl⟩

/-- ε is a positive real: its pattern has sign 0, exponent field 117 and significand field 201327, so
    ε = (2²³ + 201327) · 2^(117 − 127 − 23) = 8589935 · 2⁻³³. -/
theorem eps_pos_real : ∃ e : ℝ, 0 < e ∧ eps = (e : EReal) := by
  unfold eps
  simp [Ideal.ofBits, Ideal.ieee, -EReal.coe_mul]

/-- On a nonnegative real variance the scale (var d + ε)^(-1/2) is a real number. -/
theorem scale_real (var : ChanVec) (d : Fin 256) (hv : IsReal (var (ix1 d))) (hn : (0 : EReal) ≤ var (ix1 d)) :
    IsReal (scale var d) := by
  obtain ⟨r, hr⟩ := hv
  obtain ⟨e, he, hee⟩ := eps_pos_real
  have hr0 : 0 ≤ r := by rw [hr] at hn; exact EReal.coe_nonneg.mp hn
  have hpos : 0 < r + e := by linarith
  unfold scale
  rw [hr, hee, ← EReal.coe_add, Ideal.rsqrt_coe, if_neg (not_lt.mpr hpos.le), if_neg hpos.ne']
  exact ⟨_, rfl⟩

/-! ### Folding the normalisation into weight and bias -/

/-- Distributivity over real data, for a sum over any finite index type. -/
theorem fold_law {K : Type*} [Fintype K] (a w : K → EReal) (b mean s beta : EReal)
    (ha : ∀ k, IsReal (a k)) (hw : ∀ k, IsReal (w k))
    (hb : IsReal b) (hm : IsReal mean) (hs : IsReal s) (hbeta : IsReal beta) :
    (∑ k, a k * (w k * s)) + (b * s + (beta - mean * s)) = (((∑ k, a k * w k) + b) - mean) * s + beta := by
  choose a' ha' using ha
  choose w' hw' using hw
  obtain ⟨b', rfl⟩ := hb
  obtain ⟨m', rfl⟩ := hm
  obtain ⟨s', rfl⟩ := hs
  obtain ⟨c', rfl⟩ := hbeta
  have h1 : (∑ k, a k * (w k * (s' : EReal))) = ((∑ k, a' k * (w' k * s') : ℝ) : EReal) := by
    rw [coe_sum]; exact Finset.sum_congr rfl fun k _ => by rw [ha' k, hw' k, EReal.coe_mul, EReal.coe_mul]
  have h2 : (∑ k, a k * w k) = ((∑ k, a' k * w' k : ℝ) : EReal) := by
    rw [coe_sum]; exact Finset.sum_congr rfl fun k _ => by rw [ha' k, hw' k, EReal.coe_mul]
  rw [h1, h2]
  simp only [← EReal.coe_mul, ← EReal.coe_add, ← EReal.coe_sub]
  rw [EReal.coe_eq_coe_iff]
  have h3 : (∑ k, a' k * (w' k * s')) = (∑ k, a' k * w' k) * s' := by
    rw [Finset.sum_mul]; exact Finset.sum_congr rfl fun k _ => by ring
  rw [h3]; ring

section Block

variable (W : ChanMat) (b mean var beta : ChanVec) (g : Fin 256 → EReal) (d : Fin 256)

/-- A block applied to real data yields a real. -/
theorem convBlock_real (hW : ∀ i, IsReal (W i)) (hb : ∀ i, IsReal (b i)) (hm : ∀ i, IsReal (mean i))
    (hv : ∀ i, IsReal (var i)) (hn : ∀ i, (0 : EReal) ≤ var i) (hbeta : ∀ i, IsReal (beta i))
    (hg : ∀ c, IsReal (g c)) : IsReal (convBlock W b mean var beta g d) := by
  unfold convBlock
  exact IsReal.max
    (((((IsReal.sum fun c => (hg c).mul (hW _)).add (hb _)).sub (hm _)).mul (scale_real var d (hv _) (hn _))).add (hbeta _))
    zero_real

/-- On real data the folded block is the block. -/
theorem convBlockFolded_eq (hW : ∀ i, IsReal (W i)) (hb : ∀ i, IsReal (b i)) (hm : ∀ i, IsReal (mean i))
    (hv : ∀ i, IsReal (var i)) (hn : ∀ i, (0 : EReal) ≤ var i) (hbeta : ∀ i, IsReal (beta i))
    (hg : ∀ c, IsReal (g c)) : convBlockFolded W b mean var beta g d = convBlock W b mean var beta g d := by
  unfold convBlockFolded convBlock
  rw [fold_law g (fun c => W (ix2 c d)) (b (ix1 d)) (mean (ix1 d)) (scale var d) (beta (ix1 d))
    hg (fun c => hW _) (hb _) (hm _) (scale_real var d (hv _) (hn _)) (hbeta _)]

end Block

/-- The spatial mix of real data is real. -/
theorem mix_real (D : SqMat) (e : SqVec) (g : Fin 361 → EReal) (q : Fin 361)
    (hD : ∀ i, IsReal (D i)) (he : ∀ i, IsReal (e i)) (hg : ∀ p, IsReal (g p)) : IsReal (mix D e g q) := by
  unfold mix
  exact IsReal.max ((IsReal.sum fun p => (hg p).mul (hD _)).add (he _)) zero_real

/-! ### The three stages and the result -/

variable (a : Args) (h : a.Finite)
include h

theorem first_real (n : Fin 256) (p : Fin 361) (d : Fin 256) : IsReal (first a n p d) :=
  convBlock_real _ _ _ _ _ _ d h.w1 h.b1 h.mean1 h.var1 h.var1_nonneg h.beta1 fun _ => h.x _

theorem firstF_eq (n : Fin 256) (p : Fin 361) (d : Fin 256) : firstF a n p d = first a n p d :=
  convBlockFolded_eq _ _ _ _ _ _ d h.w1 h.b1 h.mean1 h.var1 h.var1_nonneg h.beta1 fun _ => h.x _

theorem mixed_real (n : Fin 256) (q : Fin 361) (c : Fin 256) : IsReal (mixed a n q c) :=
  mix_real _ _ _ q h.dw h.db fun p => first_real a h n p c

theorem mixedF_eq (n : Fin 256) (q : Fin 361) (c : Fin 256) : mixedF a n q c = mixed a n q c := by
  unfold mixedF mixed
  rw [mixT_eq_mix]
  congr 1
  funext p
  exact firstF_eq a h n p c

theorem secondF_eq (n : Fin 256) (q : Fin 361) (d : Fin 256) : secondF a n q d = second a n q d := by
  unfold secondF second
  have hfun : (fun c => mixedF a n q c) = fun c => mixed a n q c := funext fun c => mixedF_eq a h n q c
  rw [hfun]
  exact convBlockFolded_eq _ _ _ _ _ _ d h.w2 h.b2 h.mean2 h.var2 h.var2_nonneg h.beta2 fun c => mixed_real a h n q c

/-- The folded computation and the plain one give the same board. -/
theorem resultF_eq_result : resultF a = result a := by
  funext i
  exact congrArg (fun t => a.x i + t) (secondF_eq a h _ _ _)

end Cert.Spec
-- ==== Proof.RefSpec.lean ====
/-
  The reference program computes the specification.

  The reference is a chain of whole-array operations.  Reading its result at one index and following every operation
  back to the argument arrays gives, stage by stage, the three blocks of the specification: the first channel mix with
  its normalisation and rectifier, the spatial mix over the 361 flattened board squares, the second channel mix, and
  finally the residual sum.  The only arithmetic is in the two changes of arrangement between the board layout
  (sample, row, column, channel) and the flattened one (sample, channel, square): the flat position of square (h, w)
  is 19·h + w, and a flat position p is the square (p / 19, p % 19).
-/
import proofs.«138337_j32014686224994_2_alg».proof.Proof.Spec
import proofs.«138337_j32014686224994_2_alg».proof.Proof.Gen.ReferenceIdeal.Read

noncomputable section

open scoped BigOperators

namespace Cert.RefSpec

open Idealize.ShloMosaic Idealize.ShloMosaic.ValueIdx Cert.ReferenceIdeal Cert.ReferenceIdeal.Read Cert.Spec

variable (a : Args)

/-! ## Index equations of the first block -/

theorem lidx0 (n : Fin 256) (h w : Fin 19) (d k : Fin 256) : lidx_main_v0 (ix4 n h w d) k = ix4 n h w k :=
  funext fun e => Fin.ext (by match e with | ⟨0, _⟩ => rfl | ⟨1, _⟩ => rfl | ⟨2, _⟩ => rfl | ⟨3, _⟩ => rfl)

theorem ridx0 (n : Fin 256) (h w : Fin 19) (d k : Fin 256) : ridx_main_v0 (ix4 n h w d) k = ix2 k d :=
  funext fun e => Fin.ext (by match e with | ⟨0, _⟩ => rfl | ⟨1, _⟩ => rfl)

theorem chan_b1 (n : Fin 256) (h w : Fin 19) (d : Fin 256) : idx_main_v1 (idx_main_v2 (ix4 n h w d)) = ix1 d :=
  funext fun e => Fin.ext (by match e with | ⟨0, _⟩ => rfl)
theorem chan_mean1 (n : Fin 256) (h w : Fin 19) (d : Fin 256) : idx_main_v4 (idx_main_v5 (ix4 n h w d)) = ix1 d :=
  funext fun e => Fin.ext (by match e with | ⟨0, _⟩ => rfl)
theorem chan_var1 (n : Fin 256) (h w : Fin 19) (d : Fin 256) : idx_main_v10 (idx_main_v11 (ix4 n h w d)) = ix1 d :=
  funext fun e => Fin.ext (by match e with | ⟨0, _⟩ => rfl)
theorem chan_beta1 (n : Fin 256) (h w : Fin 19) (d : Fin 256) : idx_main_v13 (idx_main_v14 (ix4 n h w d)) = ix1 d :=
  funext fun e => Fin.ext (by match e with | ⟨0, _⟩ => rfl)

/-- The stage after the first rectifier is the specification's first block. -/
theorem first_stage (n : Fin 256) (h w : Fin 19) (d : Fin 256) :
    val_main_v16 (F := Ideal) a.x a.w1 a.b1 a.mean1 a.var1 a.beta1 (ix4 n h w d) = first a n (sq h w) d := by
  rw [val_main_v16_apply, val_main_v15_apply, val_main_v12_apply, val_main_v6_apply, val_main_v3_apply,
    val_main_v0_apply, val_main_v2_apply, val_main_v1_apply, val_main_v5_apply, val_main_v4_apply,
    val_main_v11_apply, val_main_v10_apply, val_main_v9_apply, val_main_v8_apply, val_main_v7_apply,
    val_main_cst_apply, val_main_v14_apply, val_main_v13_apply, val_main_call0_v0_apply, val_main_call0_cst_apply]
  simp only [lidx0, ridx0, chan_b1, chan_mean1, chan_var1, chan_beta1, Ideal.maximumf_def, Ideal.addf_def,
    Ideal.subf_def, Ideal.mulf_def, Ideal.hostUnary_rsqrt_def, Ideal.ofBits_def]
  simp only [first, convBlock, scale, Spec.zero, eps, rowOf_sq, colOf_sq]

/-! ## The spatial mix -/

/-- Undoing the flattening and the transposition: entry (n, c, p) of the flattened array is entry
    (n, p / 19, p % 19, c) of the board array. -/
theorem flat_idx (n c : Fin 256) (p : Fin 361) :
    idx_main_v17 (idx_main_v18 (ix3 n c p)) = ix4 n (rowOf p) (colOf p) c :=
  funext fun e => Fin.ext (by
    have hn := n.isLt; have hc := c.isLt; have hp := p.isLt
    match e with
    | ⟨0, _⟩ => show ((n.val * 256 + c.val) * 361 + p.val) / 92416 = n.val; omega
    | ⟨1, _⟩ => show ((n.val * 256 + c.val) * 361 + p.val) / 19 % 19 = p.val / 19; omega
    | ⟨2, _⟩ => show ((n.val * 256 + c.val) * 361 + p.val) % 19 = p.val % 19; omega
    | ⟨3, _⟩ => show ((n.val * 256 + c.val) * 361 + p.val) / 361 % 256 = c.val; omega)

theorem lidx19 (n c : Fin 256) (q p : Fin 361) : lidx_main_v19 (ix3 n c q) p = ix3 n c p :=
  funext fun e => Fin.ext (by match e with | ⟨0, _⟩ => rfl | ⟨1, _⟩ => rfl | ⟨2, _⟩ => rfl)

theorem ridx19 (n c : Fin 256) (q p : Fin 361) : ridx_main_v19 (ix3 n c q) p = ix2 p q :=
  funext fun e => Fin.ext (by match e with | ⟨0, _⟩ => rfl | ⟨1, _⟩ => rfl)

theorem sq_db (n c : Fin 256) (q : Fin 361) : idx_main_v20 (idx_main_v21 (ix3 n c q)) = ix1 q :=
  funext fun e => Fin.ext (by match e with | ⟨0, _⟩ => rfl)

/-- The flattened first block, read at (n, c, p). -/
theorem flat_stage (n c : Fin 256) (p : Fin 361) :
    val_main_v18 (F := Ideal) a.x a.w1 a.b1 a.mean1 a.var1 a.beta1 (ix3 n c p) = first a n p c := by
  rw [val_main_v18_apply, val_main_v17_apply, flat_idx, first_stage, sq_rowOf_colOf]

/-- The stage after the second rectifier is the specification's spatial mix. -/
theorem mixed_stage (n c : Fin 256) (q : Fin 361) :
    val_main_v23 (F := Ideal) a.x a.w1 a.b1 a.mean1 a.var1 a.beta1 a.dw a.db (ix3 n c q) = mixed a n q c := by
  rw [val_main_v23_apply, val_main_v22_apply, val_main_v19_apply, val_main_v21_apply, val_main_v20_apply,
    val_main_call1_v0_apply, val_main_call1_cst_apply]
  simp only [lidx19, ridx19, sq_db, flat_stage, Ideal.maximumf_def, Ideal.addf_def, Ideal.ofBits_def]
  simp only [mixed, mix, Spec.zero]

/-! ## The second block -/

/-- Undoing the second change of arrangement: entry (n, h, w, k) of the board array is entry (n, k, 19·h + w) of the
    flattened one. -/
theorem board_idx (n : Fin 256) (h w : Fin 19) (k : Fin 256) :
    idx_main_v24 (idx_main_v25 (ix4 n h w k)) = ix3 n k (Spec.sq h w) :=
  funext fun e => Fin.ext (by
    have hn := n.isLt; have hh := h.isLt; have hw := w.isLt; have hk := k.isLt
    match e with
    | ⟨0, _⟩ => show (((n.val * 256 + k.val) * 19 + h.val) * 19 + w.val) / 92416 = n.val; omega
    | ⟨1, _⟩ => show (((n.val * 256 + k.val) * 19 + h.val) * 19 + w.val) / 361 % 256 = k.val; omega
    | ⟨2, _⟩ => show (((n.val * 256 + k.val) * 19 + h.val) * 19 + w.val) % 361 = 19 * h.val + w.val; omega)

theorem lidx26 (n : Fin 256) (h w : Fin 19) (d k : Fin 256) : lidx_main_v26 (ix4 n h w d) k = ix4 n h w k :=
  funext fun e => Fin.ext (by match e with | ⟨0, _⟩ => rfl | ⟨1, _⟩ => rfl | ⟨2, _⟩ => rfl | ⟨3, _⟩ => rfl)

theorem ridx26 (n : Fin 256) (h w : Fin 19) (d k : Fin 256) : ridx_main_v26 (ix4 n h w d) k = ix2 k d :=
  funext fun e => Fin.ext (by match e with | ⟨0, _⟩ => rfl | ⟨1, _⟩ => rfl)

theorem chan_b2 (n : Fin 256) (h w : Fin 19) (d : Fin 256) : idx_main_v27 (idx_main_v28 (ix4 n h w d)) = ix1 d :=
  funext fun e => Fin.ext (by match e with | ⟨0, _⟩ => rfl)
theorem chan_mean2 (n : Fin 256) (h w : Fin 19) (d : Fin 256) : idx_main_v30 (idx_main_v31 (ix4 n h w d)) = ix1 d :=
  funext fun e => Fin.ext (by match e with | ⟨0, _⟩ => rfl)
theorem chan_var2 (n : Fin 256) (h w : Fin 19) (d : Fin 256) : idx_main_v36 (idx_main_v37 (ix4 n h w d)) = ix1 d :=
  funext fun e => Fin.ext (by match e with | ⟨0, _⟩ => rfl)
theorem chan_beta2 (n : Fin 256) (h w : Fin 19) (d : Fin 256) : idx_main_v39 (idx_main_v40 (ix4 n h w d)) = ix1 d :=
  funext fun e => Fin.ext (by match e with | ⟨0, _⟩ => rfl)

/-- The spatial mix back in the board arrangement, read at (n, h, w, k). -/
theorem board_stage (n : Fin 256) (h w : Fin 19) (k : Fin 256) :
    val_main_v25 (F := Ideal) a.x a.w1 a.b1 a.mean1 a.var1 a.beta1 a.dw a.db (ix4 n h w k)
      = mixed a n (Spec.sq h w) k := by
  rw [val_main_v25_apply, val_main_v24_apply, board_idx, mixed_stage]

/-- The stage after the third rectifier is the specification's second block. -/
theorem second_stage (n : Fin 256) (h w : Fin 19) (d : Fin 256) :
    val_main_v42 (F := Ideal) a.x a.w1 a.b1 a.mean1 a.var1 a.beta1 a.dw a.db a.w2 a.b2 a.mean2 a.var2 a.beta2
      (ix4 n h w d) = second a n (Spec.sq h w) d := by
  rw [val_main_v42_apply, val_main_v41_apply, val_main_v38_apply, val_main_v32_apply, val_main_v29_apply,
    val_main_v26_apply, val_main_v28_apply, val_main_v27_apply, val_main_v31_apply, val_main_v30_apply,
    val_main_v37_apply, val_main_v36_apply, val_main_v35_apply, val_main_v34_apply, val_main_v33_apply,
    val_main_cst_0_apply, val_main_v40_apply, val_main_v39_apply, val_main_call2_v0_apply, val_main_call2_cst_apply]
  simp only [lidx26, ridx26, chan_b2, chan_mean2, chan_var2, chan_beta2, board_stage, Ideal.maximumf_def,
    Ideal.addf_def, Ideal.subf_def, Ideal.mulf_def, Ideal.hostUnary_rsqrt_def, Ideal.ofBits_def]
  simp only [second, convBlock, scale, Spec.zero, eps]

/-! ## The result -/

/-- The reference's result is the specification's, as a function of the argument record. -/
theorem ref_eq_args :
    val_main_v43 (F := Ideal) a.x a.w1 a.b1 a.mean1 a.var1 a.beta1 a.dw a.db a.w2 a.b2 a.mean2 a.var2 a.beta2
      = result a := by
  refine funext fun (i : (⟨4, ![256, 19, 19, 256]⟩ : Shape).Idx) => ?_
  obtain ⟨n, h, w, d, rfl⟩ : ∃ (n : Fin 256) (h w : Fin 19) (d : Fin 256), i = ix4 n h w d :=
    ⟨i 0, i 1, i 2, i 3, eq_ix4 i⟩
  rw [val_main_v43_apply, second_stage]
  rfl

/-- The reference's result is the specification's. -/
theorem ref_eq (x0 : (⟨S256x19x19x256, .f32⟩ : BufTy).Contents (Elt Ideal))
    (x1 : (⟨S256x256, .f32⟩ : BufTy).Contents (Elt Ideal)) (x2 x3 x4 x5 : (⟨S256, .f32⟩ : BufTy).Contents (Elt Ideal))
    (x6 : (⟨S361x361, .f32⟩ : BufTy).Contents (Elt Ideal)) (x7 : (⟨S361, .f32⟩ : BufTy).Contents (Elt Ideal))
    (x8 : (⟨S256x256, .f32⟩ : BufTy).Contents (Elt Ideal))
    (x9 x10 x11 x12 : (⟨S256, .f32⟩ : BufTy).Contents (Elt Ideal)) :
    val_main_v43 (F := Ideal) x0 x1 x2 x3 x4 x5 x6 x7 x8 x9 x10 x11 x12
      = result (Args.mk x0 x1 x2 x3 x4 x5 x6 x7 x8 x9 x10 x11 x12) :=
  ref_eq_args (Args.mk x0 x1 x2 x3 x4 x5 x6 x7 x8 x9 x10 x11 x12)

end Cert.RefSpec

end
-- ==== Proof.Finite.lean ====
/-
  The precondition, read back as statements about numbers.

  The precondition is a conjunction of fifteen tests, each of the form "every entry of an array passes a comparison":
  for each of the thirteen argument arrays, |x| < +∞ at every entry; and for the two variance vectors, x ≥ 0 at every
  entry. Over the extended reals |x| = max x (−x), which is +∞ at both infinities, so |x| < +∞ holds exactly when x is a
  real number. A conjunction of truth values that comes out true had every conjunct true, and a reduction of an array of
  truth values by "and" that comes out true had every entry true; so from the precondition every entry of every argument
  is a real number and the two variance vectors are nonnegative.
-/
import Idealize.ShloMosaic.Lib.ReduceAll
import proofs.«138337_j32014686224994_2_alg».proof.Pre_finite_inputs
import proofs.«138337_j32014686224994_2_alg».proof.Proof.Spec

noncomputable section

namespace Cert.FiniteInputs

open Idealize.ShloMosaic Idealize.ShloMosaic.ValueIdx
open Cert.Pre_finite_inputs

/-- The shape with no axes has exactly one index. -/
instance : Subsingleton S_.Idx := ⟨fun a b => funext fun d => d.elim0⟩

/-- A truth value written as a one-bit word is the word 1 exactly when it is true. -/
theorem ofBool_eq_one_iff (b : Bool) : BitVec.ofBool b = 1#1 ↔ b = true := by cases b <;> decide

/-- An extended real with |x| < +∞ is a real number: at either infinity max x (−x) = +∞, which is not below +∞. The
    pattern 0x7F800000 (sign 0, exponent all ones, significand 0) denotes +∞. -/
theorem real_of_abs_lt_top (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  induction x using EReal.rec with
  | bot => simp [Ideal.cmp, Ideal.ofBits, Ideal.ieee] at h'
  | top => simp [Ideal.cmp, Ideal.ofBits, Ideal.ieee] at h'
  | coe r => exact ⟨r, rfl⟩

/-- The test x ≥ 0, read back: the all-zero pattern denotes the real number 0. -/
theorem nonneg_of_oge_zero (x : Ideal .f32)
    (h : FloatOps.cmpf .oge x (FloatOps.ofBits (F := Ideal) .f32 0x00000000#32) = 1#1) : (0 : EReal) ≤ x := by
  have h' : Ideal.cmp .oge x (Ideal.ofBits .f32 0x00000000#32) = 1#1 := h
  simpa [Ideal.cmp, Ideal.ofBits, Ideal.ieee, ofBool_eq_one_iff] using h'

/-- "Every entry of x has |x| < +∞", for an array of any shape: if the conjunction over all entries is true, every entry
    is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ix0 = 1#1) (i : s.Idx) : ∃ r : ℝ, x i = (r : EReal) :=
  real_of_abs_lt_top (x i) (Host.reduce_andi_all _ _ hr hu ix0 e i)

/-- "Every entry of x is ≥ 0", for an array of any shape: if the conjunction over all entries is true, every entry is
    nonnegative. -/
theorem all_nonneg {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .oge x (broadcastInDim s ![] hb (constant S_ .f32 0x00000000#32)))
          (constantI S_ 1 1#1) hr hu ix0 = 1#1) (i : s.Idx) : (0 : EReal) ≤ x i :=
  nonneg_of_oge_zero (x i) (Host.reduce_andi_all _ _ hr hu ix0 e i)

/-- The precondition decoded. Its value at the one index is a left-nested conjunction of fifteen tests, in the order:
    the thirteen arguments' |x| < +∞, then var₁ ≥ 0, then var₂ ≥ 0. The conjunction is peeled from the outside in. -/
theorem finite_of_pre [Facts] (x0 : Cert.Spec.Board) (x1 : Cert.Spec.ChanMat) (x2 x3 x4 x5 : Cert.Spec.ChanVec)
    (x6 : Cert.Spec.SqMat) (x7 : Cert.Spec.SqVec) (x8 : Cert.Spec.ChanMat) (x9 x10 x11 x12 : Cert.Spec.ChanVec)
    (h : fn (F := Ideal) x0 x1 x2 x3 x4 x5 x6 x7 x8 x9 x10 x11 x12 = (fun _ => 1#1)) :
    (Cert.Spec.Args.mk x0 x1 x2 x3 x4 x5 x6 x7 x8 x9 x10 x11 x12).Finite := by
  have e := congrFun h ix0
  dsimp only [fn] at e
  dsimp only [fn_part1] at e
  dsimp only [fn_part2] at e
  dsimp only [fn_part3] at e
  dsimp only [fn_part4, andi] at e
  obtain ⟨e, c14⟩ := IntOp.andi_eq_one.1 e
  obtain ⟨e, c13⟩ := IntOp.andi_eq_one.1 e
  obtain ⟨e, c12⟩ := IntOp.andi_eq_one.1 e
  obtain ⟨e, c11⟩ := IntOp.andi_eq_one.1 e
  obtain ⟨e, c10⟩ := IntOp.andi_eq_one.1 e
  obtain ⟨e, c9⟩ := IntOp.andi_eq_one.1 e
  obtain ⟨e, c8⟩ := IntOp.andi_eq_one.1 e
  obtain ⟨e, c7⟩ := IntOp.andi_eq_one.1 e
  obtain ⟨e, c6⟩ := IntOp.andi_eq_one.1 e
  obtain ⟨e, c5⟩ := IntOp.andi_eq_one.1 e
  obtain ⟨e, c4⟩ := IntOp.andi_eq_one.1 e
  obtain ⟨e, c3⟩ := IntOp.andi_eq_one.1 e
  obtain ⟨e, c2⟩ := IntOp.andi_eq_one.1 e
  obtain ⟨c0, c1⟩ := IntOp.andi_eq_one.1 e
  exact
    { x := all_real x0 _ _ _ c0
      w1 := all_real x1 _ _ _ c1
      b1 := all_real x2 _ _ _ c2
      mean1 := all_real x3 _ _ _ c3
      var1 := all_real x4 _ _ _ c4
      beta1 := all_real x5 _ _ _ c5
      dw := all_real x6 _ _ _ c6
      db := all_real x7 _ _ _ c7
      w2 := all_real x8 _ _ _ c8
      b2 := all_real x9 _ _ _ c9
      mean2 := all_real x10 _ _ _ c10
      var2 := all_real x11 _ _ _ c11
      beta2 := all_real x12 _ _ _ c12
      var1_nonneg := all_nonneg x4 _ _ _ c13
      var2_nonneg := all_nonneg x11 _ _ _ c14 }

end Cert.FiniteInputs

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.KBody.lean ====
/-
  The kernel body at one entry of its output tile.

  A tile holds eight samples; its 8 × 361 × 256 block is also read as a 2888 × 256 matrix whose row 361·b + p is
  square p of sample b. The body computes, for the tile's input block X, a folded channel matrix A with bias row u,
  the transposed spatial matrix T with bias column v, and a second folded channel matrix B with bias row z:

    first(b, p, c)  = max (Σ_k X(b, p, k) · A(k, c) + u(0, c)) 0
    mixed(b, q, c)  = max (Σ_p T(q, p) · first(b, p, c) + v(q, 0)) 0          (one 361 × 361 product per sample)
    out(b, q, d)    = X(b, q, d) + max (Σ_c mixed(b, q, c) · B(c, d) + z(0, d)) 0

  This module reads the body's one stored value at the entry (b, q, d) in that form.
-/
import proofs.«138337_j32014686224994_2_alg».proof.Proof.Gen.KernelIdeal.Skeleton
import proofs.«138337_j32014686224994_2_alg».proof.Proof.LibMatmulPlain
import proofs.«138337_j32014686224994_2_alg».proof.Proof.LibKeepdims
import proofs.«138337_j32014686224994_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KBody

open Cert.KernelIdeal Cert.KernelIdeal.Gen Idealize.ShloMosaic Idealize.ShloMosaic.ValueIdx

variable {α : Type}

/-- Row of the tile's matrix form that holds square `p` of sample `b`. -/
def tileRow (b : Fin 8) (p : Fin 361) : Fin 2888 := ⟨361 * b.val + p.val, by have := b.isLt; have := p.isLt; omega⟩

/-- The tile read as a matrix: row `361·b + p` is square `p` of sample `b` (both are the same position in
    row-major order). -/
theorem flatten_apply (v : S8x361x256.Idx → α) (h : S8x361x256.ShapeCasts S2888x256) (b : Fin 8) (p : Fin 361) (k : Fin 256) :
    shapeCast S2888x256 v h (ix2 (tileRow b p) k) = v (ix3 b p k) :=
  shapeCast_apply v h _ _ (by
    rw [Shape.rowMajor_val_three, Shape.rowMajor_val_two]
    show (b.val * 361 + p.val) * 256 + k.val = (361 * b.val + p.val) * 256 + k.val
    omega)

/-- And back: entry `(b, p, k)` of the tile is row `361·b + p`, column `k` of its matrix form. -/
theorem unflatten_apply (v : S2888x256.Idx → α) (h : S2888x256.ShapeCasts S8x361x256) (b : Fin 8) (p : Fin 361) (k : Fin 256) :
    shapeCast S8x361x256 v h (ix3 b p k) = v (ix2 (tileRow b p) k) :=
  shapeCast_apply v h _ _ (by
    rw [Shape.rowMajor_val_three, Shape.rowMajor_val_two]
    show (361 * b.val + p.val) * 256 + k.val = (b.val * 361 + p.val) * 256 + k.val
    omega)

/-- Sample `o` of a tile, cut out as a 1 × 361 × 256 slab and read as a 361 × 256 matrix. -/
theorem sample_apply (v : S8x361x256.Idx → α) (o : Nat) (ho : o < 8) (h : S8x361x256.Slices ![o, 0, 0] S1x361x256)
    (h' : S1x361x256.ShapeCasts S361x256) (p : Fin 361) (c : Fin 256) :
    shapeCast S361x256 (extractStridedSlice S1x361x256 ![o, 0, 0] v h) h' (ix2 p c) = v (ix3 (⟨o, ho⟩ : Fin 8) p c) := by
  refine (shapeCast_apply _ h' (ix2 p c) (ix3 (0 : Fin 1) p c) (by
    rw [Shape.rowMajor_val_three, Shape.rowMajor_val_two]
    show (0 * 361 + p.val) * 256 + c.val = p.val * 256 + c.val
    omega)).trans ?_
  refine extractStridedSlice_apply _ v h _ (ix3 (⟨o, ho⟩ : Fin 8) p c) fun a => ?_
  match a with
  | ⟨0, _⟩ => show o = o + 0; omega
  | ⟨1, _⟩ => show p.val = 0 + p.val; omega
  | ⟨2, _⟩ => show c.val = 0 + c.val; omega

variable [Facts]

/-- The tile in matrix form, as the body first reads it. -/
theorem pay1_apply (x0 : Vec Ideal S8x361x256 .f32) (b : Fin 8) (p : Fin 361) (k : Fin 256) :
    k0_pay1 x0 (ix2 (tileRow b p) k) = x0 (ix3 b p k) := by
  unfold k0_pay1
  rw [flatten_apply, shapeCast_self]

/-- A product of the tile's matrix form with a 256 × 256 matrix into the zero accumulator, at an entry. -/
theorem chanProduct_apply (l : FVec Ideal S2888x256 .f32) (r : FVec Ideal S256x256 .f32) (i : Fin 2888) (c : Fin 256) :
    matmul dot_S2888x256_S256x256_S2888x256_1_0_0_1_n_n (some .fp32) l r (constant S2888x256 .f32 0x00000000#32) (ix2 i c)
      = ∑ k : Fin 256, l (ix2 i k) * r (ix2 k c) :=
  Cert.LibMatmulPlain.matmul_zero_apply dot_S2888x256_S256x256_S2888x256_1_0_0_1_n_n rfl rfl rfl rfl rfl rfl (some .fp32) l r i c

/-- A product of the 361 × 361 matrix with one sample's 361 × 256 matrix into the zero accumulator, at an entry. -/
theorem sqProduct_apply (l : FVec Ideal S361x361 .f32) (r : FVec Ideal S361x256 .f32) (q : Fin 361) (c : Fin 256) :
    matmul dot_S361x361_S361x256_S361x256_1_0_0_1_n_n (some .fp32) l r (constant S361x256 .f32 0x00000000#32) (ix2 q c)
      = ∑ p : Fin 361, l (ix2 q p) * r (ix2 p c) :=
  Cert.LibMatmulPlain.matmul_zero_apply dot_S361x361_S361x256_S361x256_1_0_0_1_n_n rfl rfl rfl rfl rfl rfl (some .fp32) l r q c

/-- After the first block: entry `(b, p, c)`. -/
theorem pay2_apply (x0 : Vec Ideal S8x361x256 .f32) (x1 : Vec Ideal S256x256 .f32) (x2 : Vec Ideal S1x256 .f32)
    (b : Fin 8) (p : Fin 361) (c : Fin 256) :
    k0_pay2 x0 x1 x2 (ix3 b p c)
      = max ((∑ k : Fin 256, x0 (ix3 b p k) * x1 (ix2 k c)) + x2 (ix2 (0 : Fin 1) c)) Cert.Spec.zero := by
  unfold k0_pay2
  rw [unflatten_apply, maximumf_apply, addf_apply, broadcast_apply, chanProduct_apply,
    Cert.LibKeepdims.row_spread_apply]
  simp only [pay1_apply, shapeCast_self]
  rfl

/-- The spatial matrix as loaded. -/
theorem pay3_eq (x3 : Vec Ideal S361x361 .f32) : k0_pay3 x3 = x3 := by
  unfold k0_pay3
  rw [shapeCast_self]

/-- The spatial bias column spread over the channels. -/
theorem pay4_apply (x4 : Vec Ideal S361x1 .f32) (q : Fin 361) (c : Fin 256) :
    k0_pay4 x4 (ix2 q c) = x4 (ix2 q (0 : Fin 1)) := by
  unfold k0_pay4
  rw [Cert.LibKeepdims.broadcastTo_a1_ab_apply, shapeCast_self, shapeCast_self]

/-- The spatial mix of one sample's matrix `s`: product with `T`, bias `v`, rectifier. -/
def mixPart (T : FVec Ideal S361x361 .f32) (v s : FVec Ideal S361x256 .f32) : FVec Ideal S361x256 .f32 :=
  maximumf (addf (matmul dot_S361x361_S361x256_S361x256_1_0_0_1_n_n (some .fp32) T s (constant S361x256 .f32 0x00000000#32)) v)
    (broadcast S361x256 (Scalar.ofBits .f32 0x00000000#32))

theorem mixPart_apply (T : FVec Ideal S361x361 .f32) (v s : FVec Ideal S361x256 .f32) (q : Fin 361) (c : Fin 256) :
    mixPart T v s (ix2 q c) = max ((∑ p : Fin 361, T (ix2 q p) * s (ix2 p c)) + v (ix2 q c)) Cert.Spec.zero := by
  unfold mixPart
  rw [maximumf_apply, addf_apply, broadcast_apply, sqProduct_apply]
  rfl

/-- Sample `o` of a tile as a 361 × 256 matrix. -/
def sampleOf (w : FVec Ideal S8x361x256 .f32) (o : Nat) (h : S8x361x256.Slices ![o, 0, 0] S1x361x256) : FVec Ideal S361x256 .f32 :=
  shapeCast S361x256 (extractStridedSlice S1x361x256 ![o, 0, 0] w h) shapeCasts_S1x361x256_S361x256

/-- The spatial mix of all eight samples of a tile `w`, stacked again into the tile's matrix form. -/
def mixedTile (T : FVec Ideal S361x361 .f32) (v : FVec Ideal S361x256 .f32) (w : FVec Ideal S8x361x256 .f32) : FVec Ideal S2888x256 .f32 :=
  concatenate S2888x256 0 [⟨S361x256, mixPart T v (sampleOf w 0 slices_S8x361x256_o0_0_0_S1x361x256)⟩,
    ⟨S361x256, mixPart T v (sampleOf w 1 slices_S8x361x256_o1_0_0_S1x361x256)⟩,
    ⟨S361x256, mixPart T v (sampleOf w 2 slices_S8x361x256_o2_0_0_S1x361x256)⟩,
    ⟨S361x256, mixPart T v (sampleOf w 3 slices_S8x361x256_o3_0_0_S1x361x256)⟩,
    ⟨S361x256, mixPart T v (sampleOf w 4 slices_S8x361x256_o4_0_0_S1x361x256)⟩,
    ⟨S361x256, mixPart T v (sampleOf w 5 slices_S8x361x256_o5_0_0_S1x361x256)⟩,
    ⟨S361x256, mixPart T v (sampleOf w 6 slices_S8x361x256_o6_0_0_S1x361x256)⟩,
    ⟨S361x256, mixPart T v (sampleOf w 7 slices_S8x361x256_o7_0_0_S1x361x256)⟩]
    concatenates_S361x256_S361x256_S361x256_S361x256_S361x256_S361x256_S361x256_S361x256_S2888x256_d0

/-- In a stack of 361-row matrices along the rows, row `361·o + q` is row `q` of piece `o`, when the pieces before
    it have `361·o` rows together. -/
theorem stackedRow_apply (xs : List ((s : Shape) × (s.Idx → α))) (h : Shape.Concatenates (xs.map (·.1)) S2888x256 (0 : Fin 2))
    (o : Nat) (ho : o < 8) (x₁ : S361x256.Idx → α) (hk : o < xs.length) (hxk : xs[o] = ⟨S361x256, x₁⟩)
    (hpre : (((xs.take o).map (·.1)).map fun s => if h : s.rank = S2888x256.rank then s.size ((0 : Fin 2).cast h.symm) else 0).sum = 361 * o)
    (q : Fin 361) (c : Fin 256) :
    concatenate S2888x256 (0 : Fin 2) xs h (ix2 (tileRow ⟨o, ho⟩ q) c) = x₁ (ix2 q c) :=
  concatenate_apply_piece (0 : Fin 2) xs h (ix2 (tileRow ⟨o, ho⟩ q) c) o hk S361x256 x₁ hxk rfl (361 * o) hpre (ix2 q c)
    (fun a ha => by
      match a with
      | ⟨0, _⟩ => exact absurd rfl ha
      | ⟨1, _⟩ => rfl)
    rfl

/-- Row `361·b + q` of the stacked mix is row `q` of sample `b`'s mix: the rows before it belong to the samples
    before `b`. -/
theorem mixedTile_apply (T : FVec Ideal S361x361 .f32) (v : FVec Ideal S361x256 .f32) (w : FVec Ideal S8x361x256 .f32)
    (b : Fin 8) (q : Fin 361) (c : Fin 256) :
    mixedTile T v w (ix2 (tileRow b q) c)
      = max ((∑ p : Fin 361, T (ix2 q p) * w (ix3 b p c)) + v (ix2 q c)) Cert.Spec.zero := by
  unfold mixedTile
  match b with
  | ⟨0, hb⟩ =>
    refine (stackedRow_apply _ _ 0 hb (mixPart T v (sampleOf w 0 slices_S8x361x256_o0_0_0_S1x361x256)) ?_ ?_ ?_ q c).trans ?_
    · exact hb
    · rfl
    · rfl
    · rw [mixPart_apply]
      simp only [sampleOf, sample_apply w 0 hb]
  | ⟨1, hb⟩ =>
    refine (stackedRow_apply _ _ 1 hb (mixPart T v (sampleOf w 1 slices_S8x361x256_o1_0_0_S1x361x256)) ?_ ?_ ?_ q c).trans ?_
    · exact hb
    · rfl
    · rfl
    · rw [mixPart_apply]
      simp only [sampleOf, sample_apply w 1 hb]
  | ⟨2, hb⟩ =>
    refine (stackedRow_apply _ _ 2 hb (mixPart T v (sampleOf w 2 slices_S8x361x256_o2_0_0_S1x361x256)) ?_ ?_ ?_ q c).trans ?_
    · exact hb
    · rfl
    · rfl
    · rw [mixPart_apply]
      simp only [sampleOf, sample_apply w 2 hb]
  | ⟨3, hb⟩ =>
    refine (stackedRow_apply _ _ 3 hb (mixPart T v (sampleOf w 3 slices_S8x361x256_o3_0_0_S1x361x256)) ?_ ?_ ?_ q c).trans ?_
    · exact hb
    · rfl
    · rfl
    · rw [mixPart_apply]
      simp only [sampleOf, sample_apply w 3 hb]
  | ⟨4, hb⟩ =>
    refine (stackedRow_apply _ _ 4 hb (mixPart T v (sampleOf w 4 slices_S8x361x256_o4_0_0_S1x361x256)) ?_ ?_ ?_ q c).trans ?_
    · exact hb
    · rfl
    · rfl
    · rw [mixPart_apply]
      simp only [sampleOf, sample_apply w 4 hb]
  | ⟨5, hb⟩ =>
    refine (stackedRow_apply _ _ 5 hb (mixPart T v (sampleOf w 5 slices_S8x361x256_o5_0_0_S1x361x256)) ?_ ?_ ?_ q c).trans ?_
    · exact hb
    · rfl
    · rfl
    · rw [mixPart_apply]
      simp only [sampleOf, sample_apply w 5 hb]
  | ⟨6, hb⟩ =>
    refine (stackedRow_apply _ _ 6 hb (mixPart T v (sampleOf w 6 slices_S8x361x256_o6_0_0_S1x361x256)) ?_ ?_ ?_ q c).trans ?_
    · exact hb
    · rfl
    · rfl
    · rw [mixPart_apply]
      simp only [sampleOf, sample_apply w 6 hb]
  | ⟨7, hb⟩ =>
    refine (stackedRow_apply _ _ 7 hb (mixPart T v (sampleOf w 7 slices_S8x361x256_o7_0_0_S1x361x256)) ?_ ?_ ?_ q c).trans ?_
    · exact hb
    · rfl
    · rfl
    · rw [mixPart_apply]
      simp only [sampleOf, sample_apply w 7 hb]

/-- The eight per-sample mixes the body computes one after the other are the stacked mix of the tile after the
    first block: the body's stored value, regrouped. -/
theorem stored_eq (x0 : Vec Ideal S8x361x256 .f32) (x1 : Vec Ideal S256x256 .f32) (x2 : Vec Ideal S1x256 .f32)
    (x3 : Vec Ideal S361x361 .f32) (x4 : Vec Ideal S361x1 .f32) (x5 : Vec Ideal S256x256 .f32) (x6 : Vec Ideal S1x256 .f32) :
    k0_pay9 (k0_pay1 x0) (k0_pay2 x0 x1 x2) (k0_pay3 x3) (k0_pay4 x4) (k0_pay5 x0 x1 x2 x3 x4) (k0_pay6 x0 x1 x2 x3 x4)
        (k0_pay7 x0 x1 x2 x3 x4) (k0_pay8 x0 x1 x2) (constant S361x256 .f32 0x00000000#32) x5 x6
      = shapeCast S8x361x256
          (addf (k0_pay1 x0)
            (maximumf
              (addf
                (matmul dot_S2888x256_S256x256_S2888x256_1_0_0_1_n_n (some .fp32)
                  (mixedTile (k0_pay3 x3) (k0_pay4 x4) (k0_pay2 x0 x1 x2))
                  (shapeCast S256x256 x5 shapeCasts_S256x256_S256x256 : FVec Ideal S256x256 .f32) (constant S2888x256 .f32 0x00000000#32))
                (broadcastTo S2888x256 (shapeCast S1x256 x6 shapeCasts_S1x256_S1x256 : FVec Ideal S1x256 .f32) broadcasts_S1x256_S2888x256))
              (broadcast S2888x256 (Scalar.ofBits .f32 0x00000000#32))))
          shapeCasts_S2888x256_S8x361x256 := rfl

/-- THE BODY AT AN ENTRY: what the tile's output block holds at `(b, q, d)`, from the seven input blocks. -/
theorem stored_apply (x0 : Vec Ideal S8x361x256 .f32) (x1 : Vec Ideal S256x256 .f32) (x2 : Vec Ideal S1x256 .f32)
    (x3 : Vec Ideal S361x361 .f32) (x4 : Vec Ideal S361x1 .f32) (x5 : Vec Ideal S256x256 .f32) (x6 : Vec Ideal S1x256 .f32)
    (b : Fin 8) (q : Fin 361) (d : Fin 256) :
    k0_pay9 (k0_pay1 x0) (k0_pay2 x0 x1 x2) (k0_pay3 x3) (k0_pay4 x4) (k0_pay5 x0 x1 x2 x3 x4) (k0_pay6 x0 x1 x2 x3 x4)
        (k0_pay7 x0 x1 x2 x3 x4) (k0_pay8 x0 x1 x2) (constant S361x256 .f32 0x00000000#32) x5 x6 (ix3 b q d)
      = x0 (ix3 b q d)
        + max ((∑ c : Fin 256,
                  max ((∑ p : Fin 361, x3 (ix2 q p)
                          * max ((∑ k : Fin 256, x0 (ix3 b p k) * x1 (ix2 k c)) + x2 (ix2 (0 : Fin 1) c)) Cert.Spec.zero)
                        + x4 (ix2 q (0 : Fin 1))) Cert.Spec.zero
                  * x5 (ix2 c d))
                + x6 (ix2 (0 : Fin 1) d)) Cert.Spec.zero := by
  rw [stored_eq, unflatten_apply, addf_apply, maximumf_apply, addf_apply, broadcast_apply, chanProduct_apply,
    Cert.LibKeepdims.row_spread_apply, pay1_apply]
  simp only [mixedTile_apply, pay3_eq, pay4_apply, pay2_apply, shapeCast_self]
  rfl

end Cert.KBody

end
-- ==== Proof.KHost.lean ====
/-
  The arrays the region finds, as functions of the argument arrays.

  Before the region the host folds each normalisation into its block's weight and bias: with s = (var + ε)^(-1/2) per
  channel, the folded weight is W(k, d) · s d and the folded bias row is b d · s d + (beta d − mean d · s d). It also
  transposes the spatial matrix, makes the spatial bias a column, and reads the board with its two spatial axes merged,
  square p = 19·h + w. After the region it splits the merged axis again. Each of these is read here at an entry.
-/
import proofs.«138337_j32014686224994_2_alg».proof.Proof.Gen.KernelIdeal.Frame
import proofs.«138337_j32014686224994_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KHost

open Cert.KernelIdeal Cert.KernelIdeal.Gen Idealize.ShloMosaic Idealize.ShloMosaic.TcCoe Idealize.SL.Sem
open Idealize.ShloMosaic.ValueIdx Idealize.ShloMosaic.StableHlo

variable {α : Type}

/-! ## The host's operations at an entry -/

/-- The per-channel scale vector. -/
def scaleVec (var : FVec Ideal S256 .f32) : FVec Ideal S256 .f32 :=
  Host.rsqrt (addf var (broadcastInDim S256 ![] bcast_S_S256 (constant (F := Ideal) S_ .f32 0x3A83126F#32)))

theorem scaleVec_apply (var : FVec Ideal S256 .f32) (d : Fin 256) : scaleVec var (ix1 d) = Cert.Spec.scale var d := by
  unfold scaleVec Cert.Spec.scale Cert.Spec.eps
  show FloatOps.hostUnary .rsqrt (var (ix1 d) + broadcastInDim S256 ![] bcast_S_S256 (constant (F := Ideal) S_ .f32 0x3A83126F#32) (ix1 d)) = _
  rw [broadcastInDim_apply _ bcast_S_S256 _ (ix1 d) ix0 (fun a => a.elim0)]
  rfl

/-- A channel vector laid out as a row and repeated down the rows reads, at `(k, d)`, its entry `d`. -/
theorem rowRepeat_apply (x : S256.Idx → α) (k d : Fin 256) :
    broadcastInDim S256x256 ![0, 1] bcast_S1x256_S256x256_0_1 (broadcastInDim S1x256 ![1] bcast_S256_S1x256_1 x) (ix2 k d) = x (ix1 d) := by
  rw [broadcastInDim_apply _ bcast_S1x256_S256x256_0_1 _ (ix2 k d) (ix2 (0 : Fin 1) d) (fun a => by
    match a with
    | ⟨0, _⟩ => rfl
    | ⟨1, _⟩ => rfl)]
  exact broadcastInDim_apply _ bcast_S256_S1x256_1 x (ix2 (0 : Fin 1) d) (ix1 d) (fun a => by
    match a with
    | ⟨0, _⟩ => rfl)

/-- The folded weight. -/
def foldedW (W : FVec Ideal S256x256 .f32) (var : FVec Ideal S256 .f32) : FVec Ideal S256x256 .f32 :=
  mulf W (broadcastInDim S256x256 ![0, 1] bcast_S1x256_S256x256_0_1 (broadcastInDim S1x256 ![1] bcast_S256_S1x256_1 (scaleVec var)))

theorem foldedW_apply (W : FVec Ideal S256x256 .f32) (var : FVec Ideal S256 .f32) (k d : Fin 256) :
    foldedW W var (ix2 k d) = W (ix2 k d) * Cert.Spec.scale var d := by
  unfold foldedW
  rw [mulf_apply, rowRepeat_apply, scaleVec_apply]

/-- A channel vector read as a one-row matrix. -/
theorem asRow_apply (x : S256.Idx → α) (d : Fin 256) : shapeCast S1x256 x shapeCasts_S256_S1x256 (ix2 (0 : Fin 1) d) = x (ix1 d) :=
  shapeCast_apply x _ _ _ (by
    rw [Shape.rowMajor_val_one, Shape.rowMajor_val_two]
    show d.val = 0 * 256 + d.val
    omega)

/-- The folded bias row. -/
def foldedB (b mean var beta : FVec Ideal S256 .f32) : FVec Ideal S1x256 .f32 :=
  shapeCast S1x256 (addf (mulf b (scaleVec var)) (subf beta (mulf mean (scaleVec var)))) shapeCasts_S256_S1x256

theorem foldedB_apply (b mean var beta : FVec Ideal S256 .f32) (d : Fin 256) :
    foldedB b mean var beta (ix2 (0 : Fin 1) d)
      = b (ix1 d) * Cert.Spec.scale var d + (beta (ix1 d) - mean (ix1 d) * Cert.Spec.scale var d) := by
  unfold foldedB
  rw [asRow_apply, addf_apply, mulf_apply, subf_apply, mulf_apply, scaleVec_apply]

/-- The transposed spatial matrix. -/
theorem transposed_apply (x : S361x361.Idx → α) (q p : Fin 361) :
    transpose S361x361 [1, 0] x transposes_S361x361_S361x361_1_0 (ix2 q p) = x (ix2 p q) :=
  transpose_apply [1, 0] x _ (ix2 q p) (ix2 p q) (fun b => by
    match b with
    | ⟨0, _⟩ => rfl
    | ⟨1, _⟩ => rfl)

/-- The spatial bias as a column. -/
theorem asColumn_apply (x : S361.Idx → α) (q : Fin 361) : shapeCast S361x1 x shapeCasts_S361_S361x1 (ix2 q (0 : Fin 1)) = x (ix1 q) :=
  shapeCast_apply x _ _ _ (by
    rw [Shape.rowMajor_val_one, Shape.rowMajor_val_two]
    show q.val = q.val * 1 + 0
    omega)

/-- The board with its spatial axes merged: square `p` is row `p / 19`, column `p % 19`. -/
theorem mergedBoard_apply (x : S256x19x19x256.Idx → α) (n : Fin 256) (p : Fin 361) (k : Fin 256) :
    shapeCast S256x361x256 x shapeCasts_S256x19x19x256_S256x361x256 (ix3 n p k)
      = x (ix4 n (Cert.Spec.rowOf p) (Cert.Spec.colOf p) k) :=
  shapeCast_apply x _ _ _ (by
    rw [Shape.rowMajor_val_four, Shape.rowMajor_val_three]
    show ((n.val * 19 + p.val / 19) * 19 + p.val % 19) * 256 + k.val = (n.val * 361 + p.val) * 256 + k.val
    omega)

/-- The merged axis split again: board square `(h, w)` is merged square `19·h + w`. -/
theorem splitBoard_apply (y : S256x361x256.Idx → α) (n : Fin 256) (h w : Fin 19) (d : Fin 256) :
    shapeCast S256x19x19x256 y shapeCasts_S256x361x256_S256x19x19x256 (ix4 n h w d) = y (ix3 n (Cert.Spec.sq h w) d) :=
  shapeCast_apply y _ _ _ (by
    rw [Shape.rowMajor_val_four, Shape.rowMajor_val_three]
    show (n.val * 361 + (19 * h.val + w.val)) * 256 + d.val = ((n.val * 19 + h.val) * 19 + w.val) * 256 + d.val
    omega)

/-! ## What the region finds in each window's array -/

variable (m : (ℓ : Loc nD τ sig) → Buf (Elt Ideal) ℓ)

/-- The thirteen argument arrays on core `c`. -/
def args (c : Dev nD) : Cert.Spec.Args where
  x := m ((c : Thread nD τ).loc main_arg0)
  w1 := m ((c : Thread nD τ).loc main_arg1)
  b1 := m ((c : Thread nD τ).loc main_arg2)
  mean1 := m ((c : Thread nD τ).loc main_arg3)
  var1 := m ((c : Thread nD τ).loc main_arg4)
  beta1 := m ((c : Thread nD τ).loc main_arg5)
  dw := m ((c : Thread nD τ).loc main_arg6)
  db := m ((c : Thread nD τ).loc main_arg7)
  w2 := m ((c : Thread nD τ).loc main_arg8)
  b2 := m ((c : Thread nD τ).loc main_arg9)
  mean2 := m ((c : Thread nD τ).loc main_arg10)
  var2 := m ((c : Thread nD τ).loc main_arg11)
  beta2 := m ((c : Thread nD τ).loc main_arg12)

theorem V_board (c : Dev nD) : (V m c main_v24 : S256x361x256.Idx → EReal)
    = shapeCast S256x361x256 (args m c).x shapeCasts_S256x19x19x256_S256x361x256 := by
  show StableHlo.after hostOps0 (fun b => m (c, b)) (Proc.devRef .tc main_v24) = _
  after_results
  rfl

theorem V_w1 (c : Dev nD) : (V m c main_v7 : S256x256.Idx → EReal) = foldedW (args m c).w1 (args m c).var1 := by
  show StableHlo.after hostOps0 (fun b => m (c, b)) (Proc.devRef .tc main_v7) = _
  after_results
  rfl

theorem V_b1 (c : Dev nD) : (V m c main_v10 : S1x256.Idx → EReal)
    = foldedB (args m c).b1 (args m c).mean1 (args m c).var1 (args m c).beta1 := by
  show StableHlo.after hostOps0 (fun b => m (c, b)) (Proc.devRef .tc main_v10) = _
  after_results
  rfl

theorem V_dwT (c : Dev nD) : (V m c main_v22 : S361x361.Idx → EReal)
    = transpose S361x361 [1, 0] (args m c).dw transposes_S361x361_S361x361_1_0 := by
  show StableHlo.after hostOps0 (fun b => m (c, b)) (Proc.devRef .tc main_v22) = _
  after_results
  rfl

theorem V_dbCol (c : Dev nD) : (V m c main_v23 : S361x1.Idx → EReal)
    = shapeCast S361x1 (args m c).db shapeCasts_S361_S361x1 := by
  show StableHlo.after hostOps0 (fun b => m (c, b)) (Proc.devRef .tc main_v23) = _
  after_results
  rfl

theorem V_w2 (c : Dev nD) : (V m c main_v18 : S256x256.Idx → EReal) = foldedW (args m c).w2 (args m c).var2 := by
  show StableHlo.after hostOps0 (fun b => m (c, b)) (Proc.devRef .tc main_v18) = _
  after_results
  rfl

theorem V_b2 (c : Dev nD) : (V m c main_v21 : S1x256.Idx → EReal)
    = foldedB (args m c).b2 (args m c).mean2 (args m c).var2 (args m c).beta2 := by
  show StableHlo.after hostOps0 (fun b => m (c, b)) (Proc.devRef .tc main_v21) = _
  after_results_simp
  rfl

end Cert.KHost

end
-- ==== Proof.KArray.lean ====
/-
  From blocks to the whole array, and the program's run.

  The grid has 32 points; point t reads samples 8t … 8t+7 of the merged board (all 361 squares, all 256 channels) and
  the six small arrays whole, and writes the same eight samples of the output. So what point t writes back is block t
  of ONE function of the arrays the region finds, the 32 blocks tile the output, and the output array ends holding that
  function. The host then splits the merged spatial axis, which gives the board the specification names (in its folded
  order of operations).
-/
import proofs.«138337_j32014686224994_2_alg».proof.Proof.Gen.KernelIdeal.Frame
import proofs.«138337_j32014686224994_2_alg».proof.Proof.KBody
import proofs.«138337_j32014686224994_2_alg».proof.Proof.KHost
import proofs.«138337_j32014686224994_2_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KHost (args)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- What the region's output array ends holding: the residual sum over the merged board, the three stages in the
    folded order. -/
def merged (a : Cert.Spec.Args) : S256x361x256.Idx → EReal := fun i =>
  a.x (ix4 (i 0) (Cert.Spec.rowOf (i 1)) (Cert.Spec.colOf (i 1)) (i 2)) + Cert.Spec.secondF a (i 0) (i 1) (i 2)

/-- The printed block-index maps, decided over the 32 points: the board window and the output window move together
    along the samples and stay at 0 elsewhere; the six small windows stay at 0. -/
theorem idx_facts : ∀ t : Fin cfg0.N,
    win0_0.index t (0 : Fin 3) = win0_7.index t (0 : Fin 3) ∧ win0_0.index t (1 : Fin 3) = 0 ∧ win0_0.index t (2 : Fin 3) = 0
    ∧ win0_7.index t (1 : Fin 3) = 0 ∧ win0_7.index t (2 : Fin 3) = 0 ∧ win0_7.index t (0 : Fin 3) ≤ 31
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- Every group of eight samples is some point's. -/
theorem idx_onto : ∀ q0 : Fin 32, ∃ t : Fin cfg0.N, win0_7.index t = ![q0.val, 0, 0] :=
  (by decide +kernel : ∀ q0 : Fin 32, ∃ t : Fin grid0.N, win0_7.index t = ![q0.val, 0, 0])

/-- The sample that row `b` of point `t`'s tile holds. -/
def tileSample (t : Fin cfg0.N) (b : Fin 8) : Fin 256 :=
  ⟨win0_7.index t (0 : Fin 3) * 8 + b.val, by have := (idx_facts t).2.2.2.2.2.1; have := b.isLt; omega⟩

/-! ## Each input block is its array read where the tile sits -/

theorem blk0 (c : Dev nD) (t : Fin cfg0.N) (b : Fin 8) (p : Fin 361) (k : Fin 256) :
    iblk m c 0 t (ix3 b p k) = V m c main_v24 (ix3 (tileSample t b) p k) := by
  obtain ⟨e0, e1, e2, -⟩ := idx_facts t
  show V m c main_v24 (((cfg0.win 0).blk t).view.emb (ix3 b p k)) = V m c main_v24 (ix3 (tileSample t b) p k)
  refine congrArg _ (funext fun a => Fin.ext ?_)
  match a with
  | ⟨0, _⟩ => show win0_0.index t (0 : Fin 3) * 8 + 1 * b.val = win0_7.index t (0 : Fin 3) * 8 + b.val; omega
  | ⟨1, _⟩ => show win0_0.index t (1 : Fin 3) * 361 + 1 * p.val = p.val; omega
  | ⟨2, _⟩ => show win0_0.index t (2 : Fin 3) * 256 + 1 * k.val = k.val; omega

theorem blk1 (c : Dev nD) (t : Fin cfg0.N) (i : Fin 256) (j : Fin 256) :
    iblk m c 1 t (ix2 i j) = V m c main_v7 (ix2 i j) := by
  obtain ⟨e0, e1⟩ := (idx_facts t).2.2.2.2.2.2.1
  show V m c main_v7 (((cfg0.win 1).blk t).view.emb (ix2 i j)) = V m c main_v7 (ix2 i j)
  refine congrArg _ (funext fun a => Fin.ext ?_)
  match a with
  | ⟨0, _⟩ => show win0_1.index t (0 : Fin 2) * 256 + 1 * i.val = i.val; omega
  | ⟨1, _⟩ => show win0_1.index t (1 : Fin 2) * 256 + 1 * j.val = j.val; omega

theorem blk2 (c : Dev nD) (t : Fin cfg0.N) (i : Fin 1) (j : Fin 256) :
    iblk m c 2 t (ix2 i j) = V m c main_v10 (ix2 i j) := by
  obtain ⟨e0, e1⟩ := (idx_facts t).2.2.2.2.2.2.2.1
  show V m c main_v10 (((cfg0.win 2).blk t).view.emb (ix2 i j)) = V m c main_v10 (ix2 i j)
  refine congrArg _ (funext fun a => Fin.ext ?_)
  match a with
  | ⟨0, _⟩ => show win0_2.index t (0 : Fin 2) * 1 + 1 * i.val = i.val; omega
  | ⟨1, _⟩ => show win0_2.index t (1 : Fin 2) * 256 + 1 * j.val = j.val; omega

theorem blk3 (c : Dev nD) (t : Fin cfg0.N) (i : Fin 361) (j : Fin 361) :
    iblk m c 3 t (ix2 i j) = V m c main_v22 (ix2 i j) := by
  obtain ⟨e0, e1⟩ := (idx_facts t).2.2.2.2.2.2.2.2.1
  show V m c main_v22 (((cfg0.win 3).blk t).view.emb (ix2 i j)) = V m c main_v22 (ix2 i j)
  refine congrArg _ (funext fun a => Fin.ext ?_)
  match a with
  | ⟨0, _⟩ => show win0_3.index t (0 : Fin 2) * 361 + 1 * i.val = i.val; omega
  | ⟨1, _⟩ => show win0_3.index t (1 : Fin 2) * 361 + 1 * j.val = j.val; omega

theorem blk4 (c : Dev nD) (t : Fin cfg0.N) (i : Fin 361) (j : Fin 1) :
    iblk m c 4 t (ix2 i j) = V m c main_v23 (ix2 i j) := by
  obtain ⟨e0, e1⟩ := (idx_facts t).2.2.2.2.2.2.2.2.2.1
  show V m c main_v23 (((cfg0.win 4).blk t).view.emb (ix2 i j)) = V m c main_v23 (ix2 i j)
  refine congrArg _ (funext fun a => Fin.ext ?_)
  match a with
  | ⟨0, _⟩ => show win0_4.index t (0 : Fin 2) * 361 + 1 * i.val = i.val; omega
  | ⟨1, _⟩ => show win0_4.index t (1 : Fin 2) * 1 + 1 * j.val = j.val; omega

theorem blk5 (c : Dev nD) (t : Fin cfg0.N) (i : Fin 256) (j : Fin 256) :
    iblk m c 5 t (ix2 i j) = V m c main_v18 (ix2 i j) := by
  obtain ⟨e0, e1⟩ := (idx_facts t).2.2.2.2.2.2.2.2.2.2.1
  show V m c main_v18 (((cfg0.win 5).blk t).view.emb (ix2 i j)) = V m c main_v18 (ix2 i j)
  refine congrArg _ (funext fun a => Fin.ext ?_)
  match a with
  | ⟨0, _⟩ => show win0_5.index t (0 : Fin 2) * 256 + 1 * i.val = i.val; omega
  | ⟨1, _⟩ => show win0_5.index t (1 : Fin 2) * 256 + 1 * j.val = j.val; omega

theorem blk6 (c : Dev nD) (t : Fin cfg0.N) (i : Fin 1) (j : Fin 256) :
    iblk m c 6 t (ix2 i j) = V m c main_v21 (ix2 i j) := by
  obtain ⟨e0, e1⟩ := (idx_facts t).2.2.2.2.2.2.2.2.2.2.2
  show V m c main_v21 (((cfg0.win 6).blk t).view.emb (ix2 i j)) = V m c main_v21 (ix2 i j)
  refine congrArg _ (funext fun a => Fin.ext ?_)
  match a with
  | ⟨0, _⟩ => show win0_6.index t (0 : Fin 2) * 1 + 1 * i.val = i.val; omega
  | ⟨1, _⟩ => show win0_6.index t (1 : Fin 2) * 256 + 1 * j.val = j.val; omega

/-- The output block's entry `(b, q, d)` sits at sample `tileSample t b` of the output array. -/
theorem emb7 (t : Fin cfg0.N) (b : Fin 8) (q : Fin 361) (d : Fin 256) :
    ((cfg0.win 7).blk t).view.emb (ix3 b q d) = ix3 (tileSample t b) q d := by
  obtain ⟨-, -, -, e3, e4, -⟩ := idx_facts t
  refine funext fun a => Fin.ext ?_
  match a with
  | ⟨0, _⟩ => show win0_7.index t (0 : Fin 3) * 8 + 1 * b.val = win0_7.index t (0 : Fin 3) * 8 + b.val; omega
  | ⟨1, _⟩ => show win0_7.index t (1 : Fin 3) * 361 + 1 * q.val = q.val; omega
  | ⟨2, _⟩ => show win0_7.index t (2 : Fin 3) * 256 + 1 * d.val = d.val; omega

/-! ## What a point writes back -/

/-- The region finds the spatial matrix transposed: entry `(q, p)` is `D(p, q)`. -/
theorem dwT_apply (c : Dev nD) (q p : Fin 361) :
    (V m c main_v22 : S361x361.Idx → EReal) (ix2 q p) = (args m c).dw (ix2 p q) := by
  rw [Cert.KHost.V_dwT]
  exact Cert.KHost.transposed_apply _ q p

/-- Point `t` writes back block `t` of `merged` of the argument arrays. -/
theorem flushed_eq (c : Dev nD) (t : Fin cfg0.N) :
    (dats m 0 c).flushed 7 t = ((cfg0.win 7).blk t).view.read (Elt Ideal) (merged (args m c)) := by
  show (cfg0.win 7).cut (grid0.coords t) ((dats m 0 c).after 7 t) = _
  rw [after0_7]
  unfold out0_7
  rw [View.canon_unit_zero hz3]
  simp only [View.ld_unit_zero (S := S8x361x256) hz3, View.ld_unit_zero (S := S256x256) hz2,
    View.ld_unit_zero (S := S1x256) hz2, View.ld_unit_zero (S := S361x361) hz2, View.ld_unit_zero (S := S361x1) hz2]
  funext j
  obtain ⟨b, q, d, rfl⟩ : ∃ (b : Fin 8) (q : Fin 361) (d : Fin 256), j = ix3 b q d := ⟨j 0, j 1, j 2, eq_ix3 j⟩
  refine (Cert.KBody.stored_apply (iblk m c 0 t) (iblk m c 1 t) (iblk m c 2 t) (iblk m c 3 t) (iblk m c 4 t)
    (iblk m c 5 t) (iblk m c 6 t) b q d).trans ?_
  show _ = merged (args m c) (((cfg0.win 7).blk t).view.emb (ix3 b q d))
  rw [emb7]
  simp only [blk0 m c t, blk1 m c t, blk2 m c t, blk3 m c t, blk4 m c t, blk5 m c t, blk6 m c t]
  simp only [dwT_apply m c]
  rw [Cert.KHost.V_board, Cert.KHost.V_w1, Cert.KHost.V_b1, Cert.KHost.V_dbCol, Cert.KHost.V_w2, Cert.KHost.V_b2]
  simp only [Cert.KHost.mergedBoard_apply, Cert.KHost.foldedW_apply, Cert.KHost.foldedB_apply,
    Cert.KHost.transposed_apply, Cert.KHost.asColumn_apply]
  rfl

/-! ## The blocks tile the output -/

/-- An index of the output array is in point `t`'s block iff each coordinate is in the block's range. -/
theorem mem_blk7 (t : Fin cfg0.N) (i : S256x361x256.Idx) :
    i ∈ ((cfg0.win 7).blk t).view.set ↔ ∀ a : Fin 3, win0_7.index t a * S8x361x256.size a ≤ (i a).val
      ∧ (i a).val < win0_7.index t a * S8x361x256.size a + S8x361x256.size a := by
  show i ∈ ((View.whole main_v25).slice (win0_7.rect t)).set ↔ _
  rw [View.set_slice_whole, Rect.mem_set_unit]
  exact Iff.rfl

/-- Sample `n` lies in the block of the point that handles samples `8·(n / 8) … 8·(n / 8) + 7`. -/
theorem cover (i : S256x361x256.Idx) :
    ∃ t : Fin cfg0.N, (cfg0.win 7).flush t = true ∧ i ∈ ((cfg0.win 7).blk t).view.set := by
  have hi0 : (i 0).val < 256 := (i 0).isLt
  have hi1 : (i 1).val < 361 := (i 1).isLt
  have hi2 : (i 2).val < 256 := (i 2).isLt
  obtain ⟨t, ht⟩ := idx_onto ⟨(i 0).val / 8, by omega⟩
  have q0 : win0_7.index t (0 : Fin 3) = (i 0).val / 8 := congrFun ht 0
  have q1 : win0_7.index t (1 : Fin 3) = 0 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 361 ≤ (i 1).val ∧ (i 1).val < win0_7.index t (1 : Fin 3) * 361 + 361; omega
  | ⟨2, _⟩ => show win0_7.index t (2 : Fin 3) * 256 ≤ (i 2).val ∧ (i 2).val < win0_7.index t (2 : Fin 3) * 256 + 256; omega

/-- The output array after the region. -/
theorem final (c : Dev nD) : (dats m 0 c).arrAt 7 cfg0.N = merged (args m c) :=
  (dats m 0 c).arrAt_eq_of_cover 7 (merged (args m c)) (fun t _ => flushed_eq m c t) cover

/-! ## After the region: the merged axis split -/

/-- The program's result, read off the frame run's post. -/
theorem result_eq (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v26) = Cert.Spec.resultF (args m c) := by
  refine ((h c).2 main_v26 (Pipeline.mem_restRefs_of main_v26 (by decide) (by decide))).trans ?_
  unfold Pipeline.afterTail₀
  show StableHlo.after hostOps1 _ (Proc.devRef .tc main_v26) = _
  after_results
  rw [(Pipeline.withArrays_arr spec0 launch0.win.arr_inj c _ _ 7).trans (final m c)]
  funext i
  obtain ⟨n, hh, w, d, rfl⟩ : ∃ (n : Fin 256) (hh w : Fin 19) (d : Fin 256), i = ix4 n hh w d :=
    ⟨i 0, i 1, i 2, i 3, eq_ix4 i⟩
  show shapeCast S256x19x19x256 (merged (args m c)) shapeCasts_S256x361x256_S256x19x19x256 (ix4 n hh w d) = _
  rw [Cert.KHost.splitBoard_apply]
  unfold merged Cert.Spec.resultF
  show (args m c).x (ix4 n (Cert.Spec.rowOf (Cert.Spec.sq hh w)) (Cert.Spec.colOf (Cert.Spec.sq hh w)) d)
      + Cert.Spec.secondF (args m c) n (Cert.Spec.sq hh w) d = _
  rw [Cert.Spec.rowOf_sq, Cert.Spec.colOf_sq]

/-- THE RUN: every weakly fair execution terminates with the result array at the specification's board (folded order)
    and the thirteen arguments unchanged. -/
theorem run : θ_run defs (onTc (τ := τ) (main (F := Ideal))) ⟨m, fun _ => 0, ρ⟩ fun r => ∀ c : Dev nD,
      r.2.mem ((c.tc : Thread nD τ).loc main_v26) = Cert.Spec.resultF (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨result_eq m r h c,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.KArray

end
-- ==== Proof.lean ====
/-
  A residual block on a 19 × 19 board with 256 channels: a channel mix with normalisation and rectifier, a spatial mix
  over the 361 squares with rectifier, a second channel mix with normalisation and rectifier, and the input added back.

  The reference normalises after each channel mix: ((x·W + b) − mean) · s + beta with s = (var + ε)^(-1/2). The kernel's
  host code folds s into the weight and the bias first, x·(W·s) + (b·s + (beta − mean·s)), and the kernel proper works
  on tiles of eight samples read as 2888 × 256 matrices, with the spatial matrix transposed so that no transposition
  of the activations is needed. Moving s inside the sum over the 256 input channels is distributivity, which on the
  extended reals holds only away from the infinities. Under the precondition every argument entry is a real number and
  both variance vectors are nonnegative, so var + ε is a positive real, s is a positive real, every intermediate value
  is a real, and the two orders of operations agree (Proof/Algebra.lean). Without the nonnegativity the scale can be
  infinite (var = −ε) and the two programs differ.

  The pieces: Proof/Spec.lean states the common function in both orders; Proof/RefSpec.lean reads the reference's
  operations as the plain order; Proof/KBody.lean reads the kernel body's stored value at an entry; Proof/KHost.lean
  reads the host operations around the region; Proof/KArray.lean goes from the 32 tiles to the whole array and gives
  the kernel's run in the folded order; Proof/Finite.lean decodes the precondition.
-/
import proofs.«138337_j32014686224994_2_alg».proof.Defs
import proofs.«138337_j32014686224994_2_alg».proof.Proof.Gen.Kernel
import proofs.«138337_j32014686224994_2_alg».proof.Proof.Gen.Kernel.Skeleton
import proofs.«138337_j32014686224994_2_alg».proof.Proof.Gen.Kernel.Launch
import proofs.«138337_j32014686224994_2_alg».proof.Proof.Gen.Kernel.Points
import proofs.«138337_j32014686224994_2_alg».proof.Proof.Gen.Kernel.Frame
import proofs.«138337_j32014686224994_2_alg».proof.Proof.Gen.KernelIdeal
import proofs.«138337_j32014686224994_2_alg».proof.Proof.Gen.KernelIdeal.Skeleton
import proofs.«138337_j32014686224994_2_alg».proof.Proof.Gen.KernelIdeal.Launch
import proofs.«138337_j32014686224994_2_alg».proof.Proof.Gen.KernelIdeal.Points
import proofs.«138337_j32014686224994_2_alg».proof.Proof.Gen.KernelIdeal.Frame
import proofs.«138337_j32014686224994_2_alg».proof.Proof.Gen.ReferenceIdeal
import proofs.«138337_j32014686224994_2_alg».proof.Proof.Gen.Pre_finite_inputs
import proofs.«138337_j32014686224994_2_alg».proof.Proof.Gen.ReferenceIdeal.Run
import proofs.«138337_j32014686224994_2_alg».proof.Proof.Gen.ReferenceIdeal.Read
import proofs.«138337_j32014686224994_2_alg».proof.Proof.Spec
import proofs.«138337_j32014686224994_2_alg».proof.Proof.Algebra
import proofs.«138337_j32014686224994_2_alg».proof.Proof.RefSpec
import proofs.«138337_j32014686224994_2_alg».proof.Proof.Finite
import proofs.«138337_j32014686224994_2_alg».proof.Proof.KArray
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same board: the kernel's run gives the folded order, the reference's run the plain
    order, and on real arguments with nonnegative variances the two orders agree. -/
theorem algebraic : Cert.algebraic_KernelIdeal_ReferenceIdeal := by
  intro m ρ m' ρ' hpre hagree
  refine ⟨fun c => Cert.Spec.resultF (Cert.KHost.args m c), Cert.KArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v43_eq, Cert.RefSpec.ref_eq, a0, a1, a2, a3, a4, a5, a6, a7, a8, a9, a10, a11, a12]
  exact (Cert.Spec.resultF_eq_result (Cert.KHost.args m c)
    (Cert.FiniteInputs.finite_of_pre _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
